-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S128x64 : Shape := ⟨2, ![128, 64]⟩
abbrev S128 : Shape := ⟨1, ![128]⟩
abbrev S2016x128 : Shape := ⟨2, ![2016, 128]⟩
abbrev S2016 : Shape := ⟨1, ![2016]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S2016x128 : S_.BroadcastsInDim S2016x128 (![] : Fin 0 → Fin S2016x128.rank)
  reducesTo_S2016x128_S_d0_1 : S2016x128.ReducesTo [0, 1] S_
  bcast_S_S2016 : S_.BroadcastsInDim S2016 (![] : Fin 0 → Fin S2016.rank)
  reducesTo_S2016_S_d0 : S2016.ReducesTo [0] S_

variable [Facts]

def fn_part1 {F : FTy → Type} [FloatOps F] (main_arg4 : FVec F S2016 .f32) (main_v13 : IVec S_ 1) (main_v16 : IVec S2016x128 1) : IVec S_ 1 :=
  let main_c_5 : IVec S_ 1 := constantI S_ 1 1#1
  let main_v17 : IVec S_ 1 := (fun x v => Host.reduce IntOp.andi x v reducesTo_S2016x128_S_d0_1 h_S_) main_v16 main_c_5
  let main_v18 : IVec S_ 1 := andi main_v13 main_v17
  let main_v19 : FVec F S2016 .f32 := Host.absf main_arg4
  let main_cst_6 : FVec F S_ .f32 := constant S_ .f32 0x7F800000#32
  let main_v20 : FVec F S2016 .f32 := broadcastInDim S2016 ![] bcast_S_S2016 main_cst_6
  let main_v21 : IVec S2016 1 := cmpf .olt main_v19 main_v20
  let main_c_7 : IVec S_ 1 := constantI S_ 1 1#1
  let main_v22 : IVec S_ 1 := (fun x v => Host.reduce IntOp.andi x v reducesTo_S2016_S_d0 h_S_) main_v21 main_c_7
  let main_v23 : IVec S_ 1 := andi main_v18 main_v22
  main_v23

def fn {F : FTy → Type} [FloatOps F] (main_arg0 : FVec F S16384x64 .f32) (main_arg1 : FVec F S128x64 .f32) (main_arg2 : FVec F S128 .f32) (main_arg3 : FVec F S2016x128 .f32) (main_arg4 : FVec F S2016 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2016x128 .f32 := Host.absf main_arg3
  let main_cst_4 : FVec F S_ .f32 := constant S_ .f32 0x7F800000#32
  let main_v15 : FVec F S2016x128 .f32 := broadcastInDim S2016x128 ![] bcast_S_S2016x128 main_cst_4
  let main_v16 : IVec S2016x128 1 := cmpf .olt main_v14 main_v15
  fn_part1 (F := F) main_arg4 main_v13 main_v16
-- ==== Kernel.lean ====
abbrev S16384x64 : Shape := ⟨2, ![16384, 64]⟩
abbrev S128x64 : Shape := ⟨2, ![128, 64]⟩
abbrev S128 : Shape := ⟨1, ![128]⟩
abbrev S2016x128 : Shape := ⟨2, ![2016, 128]⟩
abbrev S2016 : Shape := ⟨1, ![2016]⟩
abbrev S64x128 : Shape := ⟨2, ![64, 128]⟩
abbrev S128x2016 : Shape := ⟨2, ![128, 2016]⟩
abbrev S1x128 : Shape := ⟨2, ![1, 128]⟩
abbrev S1x2016 : Shape := ⟨2, ![1, 2016]⟩
abbrev S16384x64x64 : Shape := ⟨3, ![16384, 64, 64]⟩
abbrev S256x64 : Shape := ⟨2, ![256, 64]⟩
abbrev S256x64x64 : Shape := ⟨3, ![256, 64, 64]⟩
abbrev S256x128 : Shape := ⟨2, ![256, 128]⟩
abbrev S256x2016 : Shape := ⟨2, ![256, 2016]⟩
abbrev S256x63 : Shape := ⟨2, ![256, 63]⟩
abbrev S256x1x63 : Shape := ⟨3, ![256, 1, 63]⟩
abbrev S256x62 : Shape := ⟨2, ![256, 62]⟩
abbrev S256x1x62 : Shape := ⟨3, ![256, 1, 62]⟩
abbrev S256x61 : Shape := ⟨2, ![256, 61]⟩
abbrev S256x1x61 : Shape := ⟨3, ![256, 1, 61]⟩
abbrev S256x60 : Shape := ⟨2, ![256, 60]⟩
abbrev S256x1x60 : Shape := ⟨3, ![256, 1, 60]⟩
abbrev S256x59 : Shape := ⟨2, ![256, 59]⟩
abbrev S256x1x59 : Shape := ⟨3, ![256, 1, 59]⟩
abbrev S256x58 : Shape := ⟨2, ![256, 58]⟩
abbrev S256x1x58 : Shape := ⟨3, ![256, 1, 58]⟩
abbrev S256x57 : Shape := ⟨2, ![256, 57]⟩
abbrev S256x1x57 : Shape := ⟨3, ![256, 1, 57]⟩
abbrev S256x56 : Shape := ⟨2, ![256, 56]⟩
abbrev S256x1x56 : Shape := ⟨3, ![256, 1, 56]⟩
abbrev S256x55 : Shape := ⟨2, ![256, 55]⟩
abbrev S256x1x55 : Shape := ⟨3, ![256, 1, 55]⟩
abbrev S256x54 : Shape := ⟨2, ![256, 54]⟩
abbrev S256x1x54 : Shape := ⟨3, ![256, 1, 54]⟩
abbrev S256x53 : Shape := ⟨2, ![256, 53]⟩
abbrev S256x1x53 : Shape := ⟨3, ![256, 1, 53]⟩
abbrev S256x52 : Shape := ⟨2, ![256, 52]⟩
abbrev S256x1x52 : Shape := ⟨3, ![256, 1, 52]⟩
abbrev S256x51 : Shape := ⟨2, ![256, 51]⟩
abbrev S256x1x51 : Shape := ⟨3, ![256, 1, 51]⟩
abbrev S256x50 : Shape := ⟨2, ![256, 50]⟩
abbrev S256x1x50 : Shape := ⟨3, ![256, 1, 50]⟩
abbrev S256x49 : Shape := ⟨2, ![256, 49]⟩
abbrev S256x1x49 : Shape := ⟨3, ![256, 1, 49]⟩
abbrev S256x48 : Shape := ⟨2, ![256, 48]⟩
abbrev S256x1x48 : Shape := ⟨3, ![256, 1, 48]⟩
abbrev S256x47 : Shape := ⟨2, ![256, 47]⟩
abbrev S256x1x47 : Shape := ⟨3, ![256, 1, 47]⟩
abbrev S256x46 : Shape := ⟨2, ![256, 46]⟩
abbrev S256x1x46 : Shape := ⟨3, ![256, 1, 46]⟩
abbrev S256x45 : Shape := ⟨2, ![256, 45]⟩
abbrev S256x1x45 : Shape := ⟨3, ![256, 1, 45]⟩
abbrev S256x44 : Shape := ⟨2, ![256, 44]⟩
abbrev S256x1x44 : Shape := ⟨3, ![256, 1, 44]⟩
abbrev S256x43 : Shape := ⟨2, ![256, 43]⟩
abbrev S256x1x43 : Shape := ⟨3, ![256, 1, 43]⟩
abbrev S256x42 : Shape := ⟨2, ![256, 42]⟩
abbrev S256x1x42 : Shape := ⟨3, ![256, 1, 42]⟩
abbrev S256x41 : Shape := ⟨2, ![256, 41]⟩
abbrev S256x1x41 : Shape := ⟨3, ![256, 1, 41]⟩
abbrev S256x40 : Shape := ⟨2, ![256, 40]⟩
abbrev S256x1x40 : Shape := ⟨3, ![256, 1, 40]⟩
abbrev S256x39 : Shape := ⟨2, ![256, 39]⟩
abbrev S256x1x39 : Shape := ⟨3, ![256, 1, 39]⟩
abbrev S256x38 : Shape := ⟨2, ![256, 38]⟩
abbrev S256x1x38 : Shape := ⟨3, ![256, 1, 38]⟩
abbrev S256x37 : Shape := ⟨2, ![256, 37]⟩
abbrev S256x1x37 : Shape := ⟨3, ![256, 1, 37]⟩
abbrev S256x36 : Shape := ⟨2, ![256, 36]⟩
abbrev S256x1x36 : Shape := ⟨3, ![256, 1, 36]⟩
abbrev S256x35 : Shape := ⟨2, ![256, 35]⟩
abbrev S256x1x35 : Shape := ⟨3, ![256, 1, 35]⟩
abbrev S256x34 : Shape := ⟨2, ![256, 34]⟩
abbrev S256x1x34 : Shape := ⟨3, ![256, 1, 34]⟩
abbrev S256x33 : Shape := ⟨2, ![256, 33]⟩
abbrev S256x1x33 : Shape := ⟨3, ![256, 1, 33]⟩
abbrev S256x32 : Shape := ⟨2, ![256, 32]⟩
abbrev S256x1x32 : Shape := ⟨3, ![256, 1, 32]⟩
abbrev S256x31 : Shape := ⟨2, ![256, 31]⟩
abbrev S256x1x31 : Shape := ⟨3, ![256, 1, 31]⟩
abbrev S256x30 : Shape := ⟨2, ![256, 30]⟩
abbrev S256x1x30 : Shape := ⟨3, ![256, 1, 30]⟩
abbrev S256x29 : Shape := ⟨2, ![256, 29]⟩
abbrev S256x1x29 : Shape := ⟨3, ![256, 1, 29]⟩
abbrev S256x28 : Shape := ⟨2, ![256, 28]⟩
abbrev S256x1x28 : Shape := ⟨3, ![256, 1, 28]⟩
abbrev S256x27 : Shape := ⟨2, ![256, 27]⟩
abbrev S256x1x27 : Shape := ⟨3, ![256, 1, 27]⟩
abbrev S256x26 : Shape := ⟨2, ![256, 26]⟩
abbrev S256x1x26 : Shape := ⟨3, ![256, 1, 26]⟩
abbrev S256x25 : Shape := ⟨2, ![256, 25]⟩
abbrev S256x1x25 : Shape := ⟨3, ![256, 1, 25]⟩
abbrev S256x24 : Shape := ⟨2, ![256, 24]⟩
abbrev S256x1x24 : Shape := ⟨3, ![256, 1, 24]⟩
abbrev S256x23 : Shape := ⟨2, ![256, 23]⟩
abbrev S256x1x23 : Shape := ⟨3, ![256, 1, 23]⟩
abbrev S256x22 : Shape := ⟨2, ![256, 22]⟩
abbrev S256x1x22 : Shape := ⟨3, ![256, 1, 22]⟩
abbrev S256x21 : Shape := ⟨2, ![256, 21]⟩
abbrev S256x1x21 : Shape := ⟨3, ![256, 1, 21]⟩
abbrev S256x20 : Shape := ⟨2, ![256, 20]⟩
abbrev S256x1x20 : Shape := ⟨3, ![256, 1, 20]⟩
abbrev S256x19 : Shape := ⟨2, ![256, 19]⟩
abbrev S256x1x19 : Shape := ⟨3, ![256, 1, 19]⟩
abbrev S256x18 : Shape := ⟨2, ![256, 18]⟩
abbrev S256x1x18 : Shape := ⟨3, ![256, 1, 18]⟩
abbrev S256x17 : Shape := ⟨2, ![256, 17]⟩
abbrev S256x1x17 : Shape := ⟨3, ![256, 1, 17]⟩
abbrev S256x16 : Shape := ⟨2, ![256, 16]⟩
abbrev S256x1x16 : Shape := ⟨3, ![256, 1, 16]⟩
abbrev S256x15 : Shape := ⟨2, ![256, 15]⟩
abbrev S256x1x15 : Shape := ⟨3, ![256, 1, 15]⟩
abbrev S256x14 : Shape := ⟨2, ![256, 14]⟩
abbrev S256x1x14 : Shape := ⟨3, ![256, 1, 14]⟩
abbrev S256x13 : Shape := ⟨2, ![256, 13]⟩
abbrev S256x1x13 : Shape := ⟨3, ![256, 1, 13]⟩
abbrev S256x12 : Shape := ⟨2, ![256, 12]⟩
abbrev S256x1x12 : Shape := ⟨3, ![256, 1, 12]⟩
abbrev S256x11 : Shape := ⟨2, ![256, 11]⟩
abbrev S256x1x11 : Shape := ⟨3, ![256, 1, 11]⟩
abbrev S256x10 : Shape := ⟨2, ![256, 10]⟩
abbrev S256x1x10 : Shape := ⟨3, ![256, 1, 10]⟩
abbrev S256x9 : Shape := ⟨2, ![256, 9]⟩
abbrev S256x1x9 : Shape := ⟨3, ![256, 1, 9]⟩
abbrev S256x8 : Shape := ⟨2, ![256, 8]⟩
abbrev S256x1x8 : Shape := ⟨3, ![256, 1, 8]⟩
abbrev S256x7 : Shape := ⟨2, ![256, 7]⟩
abbrev S256x1x7 : Shape := ⟨3, ![256, 1, 7]⟩
abbrev S256x6 : Shape := ⟨2, ![256, 6]⟩
abbrev S256x1x6 : Shape := ⟨3, ![256, 1, 6]⟩
abbrev S256x5 : Shape := ⟨2, ![256, 5]⟩
abbrev S256x1x5 : Shape := ⟨3, ![256, 1, 5]⟩
abbrev S256x4 : Shape := ⟨2, ![256, 4]⟩
abbrev S256x1x4 : Shape := ⟨3, ![256, 1, 4]⟩
abbrev S256x3 : Shape := ⟨2, ![256, 3]⟩
abbrev S256x1x3 : Shape := ⟨3, ![256, 1, 3]⟩
abbrev S256x2 : Shape := ⟨2, ![256, 2]⟩
abbrev S256x1x2 : Shape := ⟨3, ![256, 1, 2]⟩
abbrev S256x1 : Shape := ⟨2, ![256, 1]⟩
abbrev S256x1x1 : Shape := ⟨3, ![256, 1, 1]⟩

abbrev nBuf : Space → Nat
  | .hbm => 12
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S128x64, .f32⟩
  | .hbm, ⟨2, _⟩ => ⟨S128, .f32⟩
  | .hbm, ⟨3, _⟩ => ⟨S2016x128, .f32⟩
  | .hbm, ⟨4, _⟩ => ⟨S2016, .f32⟩
  | .hbm, ⟨5, _⟩ => ⟨S64x128, .f32⟩
  | .hbm, ⟨6, _⟩ => ⟨S64x128, .bf16⟩
  | .hbm, ⟨7, _⟩ => ⟨S128x2016, .f32⟩
  | .hbm, ⟨8, _⟩ => ⟨S128x2016, .bf16⟩
  | .hbm, ⟨9, _⟩ => ⟨S1x128, .f32⟩
  | .hbm, ⟨10, _⟩ => ⟨S1x2016, .f32⟩
  | .hbm, ⟨11, _⟩ => ⟨S16384x64x64, .f32⟩
  | .local _ .vmem, ⟨0, _⟩ => ⟨S256x64, .f32⟩
  | .local _ .vmem, ⟨1, _⟩ => ⟨S256x64, .f32⟩
  | .local _ .vmem, ⟨2, _⟩ => ⟨S64x128, .bf16⟩
  | .local _ .vmem, ⟨3, _⟩ => ⟨S1x128, .f32⟩
  | .local _ .vmem, ⟨4, _⟩ => ⟨S128x2016, .bf16⟩
  | .local _ .vmem, ⟨5, _⟩ => ⟨S1x2016, .f32⟩
  | .local _ .vmem, ⟨6, _⟩ => ⟨S256x64x64, .f32⟩
  | .local _ .vmem, ⟨7, _⟩ => ⟨S256x64x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2016 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2016 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x64_S64x128_1_0 : S128x64.Transposes [1, 0] S64x128
  bitsLt_bf16_f32 : FTy.bits .bf16 < FTy.bits .f32
  transposes_S2016x128_S128x2016_1_0 : S2016x128.Transposes [1, 0] S128x2016
  shapeCasts_S128_S1x128 : S128.ShapeCasts S1x128
  shapeCasts_S2016_S1x2016 : S2016.ShapeCasts S1x2016
  inb_S256x64_S256x64_0_0 : ∀ a, (![0, 0] : Fin 2 → Nat) a + S256x64.size a ≤ S256x64.size a
  h_S256x64 : 0 < S256x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x2016_S128x2016_0_0 : ∀ a, (![0, 0] : Fin 2 → Nat) a + S128x2016.size a ≤ S128x2016.size a
  h_S128x2016 : 0 < S128x2016.numel
  shapeCasts_S128x2016_S128x2016 : S128x2016.ShapeCasts S128x2016
  inb_S1x2016_S1x2016_0_0 : ∀ a, (![0, 0] : Fin 2 → Nat) a + S1x2016.size a ≤ S1x2016.size a
  h_S1x2016 : 0 < S1x2016.numel
  shapeCasts_S1x2016_S1x2016 : S1x2016.ShapeCasts S1x2016
  broadcasts_S1x2016_S256x2016 : S1x2016.Broadcasts S256x2016
  inb_S256x64x64_S256x64x64_0_0_0 : ∀ a, (![0, 0, 0] : Fin 3 → Nat) a + S256x64x64.size a ≤ S256x64x64.size a
  h_S256x64x64 : 0 < S256x64x64.numel
  slices_S256x2016_o0_0_S256x63 : S256x2016.Slices ![0, 0] S256x63
  shapeCasts_S256x63_S256x1x63 : S256x63.ShapeCasts S256x1x63
  inb_S256x64x64_S256x1x63_0_0_1 : ∀ a, (![0, 0, 1] : Fin 3 → Nat) a + S256x1x63.size a ≤ S256x64x64.size a
  h_S256x1x63 : 0 < S256x1x63.numel
  slices_S256x2016_o0_63_S256x62 : S256x2016.Slices ![0, 63] S256x62
  shapeCasts_S256x62_S256x1x62 : S256x62.ShapeCasts S256x1x62
  inb_S256x64x64_S256x1x62_0_1_2 : ∀ a, (![0, 1, 2] : Fin 3 → Nat) a + S256x1x62.size a ≤ S256x64x64.size a
  h_S256x1x62 : 0 < S256x1x62.numel
  slices_S256x2016_o0_125_S256x61 : S256x2016.Slices ![0, 125] S256x61
  shapeCasts_S256x61_S256x1x61 : S256x61.ShapeCasts S256x1x61
  inb_S256x64x64_S256x1x61_0_2_3 : ∀ a, (![0, 2, 3] : Fin 3 → Nat) a + S256x1x61.size a ≤ S256x64x64.size a
  h_S256x1x61 : 0 < S256x1x61.numel
  slices_S256x2016_o0_186_S256x60 : S256x2016.Slices ![0, 186] S256x60
  shapeCasts_S256x60_S256x1x60 : S256x60.ShapeCasts S256x1x60
  inb_S256x64x64_S256x1x60_0_3_4 : ∀ a, (![0, 3, 4] : Fin 3 → Nat) a + S256x1x60.size a ≤ S256x64x64.size a
  h_S256x1x60 : 0 < S256x1x60.numel
  slices_S256x2016_o0_246_S256x59 : S256x2016.Slices ![0, 246] S256x59
  shapeCasts_S256x59_S256x1x59 : S256x59.ShapeCasts S256x1x59
  inb_S256x64x64_S256x1x59_0_4_5 : ∀ a, (![0, 4, 5] : Fin 3 → Nat) a + S256x1x59.size a ≤ S256x64x64.size a
  h_S256x1x59 : 0 < S256x1x59.numel
  slices_S256x2016_o0_305_S256x58 : S256x2016.Slices ![0, 305] S256x58
  shapeCasts_S256x58_S256x1x58 : S256x58.ShapeCasts S256x1x58
  inb_S256x64x64_S256x1x58_0_5_6 : ∀ a, (![0, 5, 6] : Fin 3 → Nat) a + S256x1x58.size a ≤ S256x64x64.size a
  h_S256x1x58 : 0 < S256x1x58.numel
  slices_S256x2016_o0_363_S256x57 : S256x2016.Slices ![0, 363] S256x57
  shapeCasts_S256x57_S256x1x57 : S256x57.ShapeCasts S256x1x57
  inb_S256x64x64_S256x1x57_0_6_7 : ∀ a, (![0, 6, 7] : Fin 3 → Nat) a + S256x1x57.size a ≤ S256x64x64.size a
  h_S256x1x57 : 0 < S256x1x57.numel
  slices_S256x2016_o0_420_S256x56 : S256x2016.Slices ![0, 420] S256x56
  shapeCasts_S256x56_S256x1x56 : S256x56.ShapeCasts S256x1x56
  inb_S256x64x64_S256x1x56_0_7_8 : ∀ a, (![0, 7, 8] : Fin 3 → Nat) a + S256x1x56.size a ≤ S256x64x64.size a
  h_S256x1x56 : 0 < S256x1x56.numel
  slices_S256x2016_o0_476_S256x55 : S256x2016.Slices ![0, 476] S256x55
  shapeCasts_S256x55_S256x1x55 : S256x55.ShapeCasts S256x1x55
  inb_S256x64x64_S256x1x55_0_8_9 : ∀ a, (![0, 8, 9] : Fin 3 → Nat) a + S256x1x55.size a ≤ S256x64x64.size a
  h_S256x1x55 : 0 < S256x1x55.numel
  slices_S256x2016_o0_531_S256x54 : S256x2016.Slices ![0, 531] S256x54
  shapeCasts_S256x54_S256x1x54 : S256x54.ShapeCasts S256x1x54
  inb_S256x64x64_S256x1x54_0_9_10 : ∀ a, (![0, 9, 10] : Fin 3 → Nat) a + S256x1x54.size a ≤ S256x64x64.size a
  h_S256x1x54 : 0 < S256x1x54.numel
  slices_S256x2016_o0_585_S256x53 : S256x2016.Slices ![0, 585] S256x53
  shapeCasts_S256x53_S256x1x53 : S256x53.ShapeCasts S256x1x53
  inb_S256x64x64_S256x1x53_0_10_11 : ∀ a, (![0, 10, 11] : Fin 3 → Nat) a + S256x1x53.size a ≤ S256x64x64.size a
  h_S256x1x53 : 0 < S256x1x53.numel
  slices_S256x2016_o0_638_S256x52 : S256x2016.Slices ![0, 638] S256x52
  shapeCasts_S256x52_S256x1x52 : S256x52.ShapeCasts S256x1x52
  inb_S256x64x64_S256x1x52_0_11_12 : ∀ a, (![0, 11, 12] : Fin 3 → Nat) a + S256x1x52.size a ≤ S256x64x64.size a
  h_S256x1x52 : 0 < S256x1x52.numel
  slices_S256x2016_o0_690_S256x51 : S256x2016.Slices ![0, 690] S256x51
  shapeCasts_S256x51_S256x1x51 : S256x51.ShapeCasts S256x1x51
  inb_S256x64x64_S256x1x51_0_12_13 : ∀ a, (![0, 12, 13] : Fin 3 → Nat) a + S256x1x51.size a ≤ S256x64x64.size a
  h_S256x1x51 : 0 < S256x1x51.numel
  slices_S256x2016_o0_741_S256x50 : S256x2016.Slices ![0, 741] S256x50
  shapeCasts_S256x50_S256x1x50 : S256x50.ShapeCasts S256x1x50
  inb_S256x64x64_S256x1x50_0_13_14 : ∀ a, (![0, 13, 14] : Fin 3 → Nat) a + S256x1x50.size a ≤ S256x64x64.size a
  h_S256x1x50 : 0 < S256x1x50.numel
  slices_S256x2016_o0_791_S256x49 : S256x2016.Slices ![0, 791] S256x49
  shapeCasts_S256x49_S256x1x49 : S256x49.ShapeCasts S256x1x49
  inb_S256x64x64_S256x1x49_0_14_15 : ∀ a, (![0, 14, 15] : Fin 3 → Nat) a + S256x1x49.size a ≤ S256x64x64.size a
  h_S256x1x49 : 0 < S256x1x49.numel
  slices_S256x2016_o0_840_S256x48 : S256x2016.Slices ![0, 840] S256x48
  shapeCasts_S256x48_S256x1x48 : S256x48.ShapeCasts S256x1x48
  inb_S256x64x64_S256x1x48_0_15_16 : ∀ a, (![0, 15, 16] : Fin 3 → Nat) a + S256x1x48.size a ≤ S256x64x64.size a
  h_S256x1x48 : 0 < S256x1x48.numel
  slices_S256x2016_o0_888_S256x47 : S256x2016.Slices ![0, 888] S256x47
  shapeCasts_S256x47_S256x1x47 : S256x47.ShapeCasts S256x1x47
  inb_S256x64x64_S256x1x47_0_16_17 : ∀ a, (![0, 16, 17] : Fin 3 → Nat) a + S256x1x47.size a ≤ S256x64x64.size a
  h_S256x1x47 : 0 < S256x1x47.numel
  slices_S256x2016_o0_935_S256x46 : S256x2016.Slices ![0, 935] S256x46
  shapeCasts_S256x46_S256x1x46 : S256x46.ShapeCasts S256x1x46
  inb_S256x64x64_S256x1x46_0_17_18 : ∀ a, (![0, 17, 18] : Fin 3 → Nat) a + S256x1x46.size a ≤ S256x64x64.size a
  h_S256x1x46 : 0 < S256x1x46.numel
  slices_S256x2016_o0_981_S256x45 : S256x2016.Slices ![0, 981] S256x45
  shapeCasts_S256x45_S256x1x45 : S256x45.ShapeCasts S256x1x45
  inb_S256x64x64_S256x1x45_0_18_19 : ∀ a, (![0, 18, 19] : Fin 3 → Nat) a + S256x1x45.size a ≤ S256x64x64.size a
  h_S256x1x45 : 0 < S256x1x45.numel
  slices_S256x2016_o0_1026_S256x44 : S256x2016.Slices ![0, 1026] S256x44
  shapeCasts_S256x44_S256x1x44 : S256x44.ShapeCasts S256x1x44
  inb_S256x64x64_S256x1x44_0_19_20 : ∀ a, (![0, 19, 20] : Fin 3 → Nat) a + S256x1x44.size a ≤ S256x64x64.size a
  h_S256x1x44 : 0 < S256x1x44.numel
  slices_S256x2016_o0_1070_S256x43 : S256x2016.Slices ![0, 1070] S256x43
  shapeCasts_S256x43_S256x1x43 : S256x43.ShapeCasts S256x1x43
  inb_S256x64x64_S256x1x43_0_20_21 : ∀ a, (![0, 20, 21] : Fin 3 → Nat) a + S256x1x43.size a ≤ S256x64x64.size a
  h_S256x1x43 : 0 < S256x1x43.numel
  slices_S256x2016_o0_1113_S256x42 : S256x2016.Slices ![0, 1113] S256x42
  shapeCasts_S256x42_S256x1x42 : S256x42.ShapeCasts S256x1x42
  inb_S256x64x64_S256x1x42_0_21_22 : ∀ a, (![0, 21, 22] : Fin 3 → Nat) a + S256x1x42.size a ≤ S256x64x64.size a
  h_S256x1x42 : 0 < S256x1x42.numel
  slices_S256x2016_o0_1155_S256x41 : S256x2016.Slices ![0, 1155] S256x41
  shapeCasts_S256x41_S256x1x41 : S256x41.ShapeCasts S256x1x41
  inb_S256x64x64_S256x1x41_0_22_23 : ∀ a, (![0, 22, 23] : Fin 3 → Nat) a + S256x1x41.size a ≤ S256x64x64.size a
  h_S256x1x41 : 0 < S256x1x41.numel
  slices_S256x2016_o0_1196_S256x40 : S256x2016.Slices ![0, 1196] S256x40
  shapeCasts_S256x40_S256x1x40 : S256x40.ShapeCasts S256x1x40
  inb_S256x64x64_S256x1x40_0_23_24 : ∀ a, (![0, 23, 24] : Fin 3 → Nat) a + S256x1x40.size a ≤ S256x64x64.size a
  h_S256x1x40 : 0 < S256x1x40.numel
  slices_S256x2016_o0_1236_S256x39 : S256x2016.Slices ![0, 1236] S256x39
  shapeCasts_S256x39_S256x1x39 : S256x39.ShapeCasts S256x1x39
  inb_S256x64x64_S256x1x39_0_24_25 : ∀ a, (![0, 24, 25] : Fin 3 → Nat) a + S256x1x39.size a ≤ S256x64x64.size a
  h_S256x1x39 : 0 < S256x1x39.numel
  slices_S256x2016_o0_1275_S256x38 : S256x2016.Slices ![0, 1275] S256x38
  shapeCasts_S256x38_S256x1x38 : S256x38.ShapeCasts S256x1x38
  inb_S256x64x64_S256x1x38_0_25_26 : ∀ a, (![0, 25, 26] : Fin 3 → Nat) a + S256x1x38.size a ≤ S256x64x64.size a
  h_S256x1x38 : 0 < S256x1x38.numel
  slices_S256x2016_o0_1313_S256x37 : S256x2016.Slices ![0, 1313] S256x37
  shapeCasts_S256x37_S256x1x37 : S256x37.ShapeCasts S256x1x37
  inb_S256x64x64_S256x1x37_0_26_27 : ∀ a, (![0, 26, 27] : Fin 3 → Nat) a + S256x1x37.size a ≤ S256x64x64.size a
  h_S256x1x37 : 0 < S256x1x37.numel
  slices_S256x2016_o0_1350_S256x36 : S256x2016.Slices ![0, 1350] S256x36
  shapeCasts_S256x36_S256x1x36 : S256x36.ShapeCasts S256x1x36
  inb_S256x64x64_S256x1x36_0_27_28 : ∀ a, (![0, 27, 28] : Fin 3 → Nat) a + S256x1x36.size a ≤ S256x64x64.size a
  h_S256x1x36 : 0 < S256x1x36.numel
  slices_S256x2016_o0_1386_S256x35 : S256x2016.Slices ![0, 1386] S256x35
  shapeCasts_S256x35_S256x1x35 : S256x35.ShapeCasts S256x1x35
  inb_S256x64x64_S256x1x35_0_28_29 : ∀ a, (![0, 28, 29] : Fin 3 → Nat) a + S256x1x35.size a ≤ S256x64x64.size a
  h_S256x1x35 : 0 < S256x1x35.numel
  slices_S256x2016_o0_1421_S256x34 : S256x2016.Slices ![0, 1421] S256x34
  shapeCasts_S256x34_S256x1x34 : S256x34.ShapeCasts S256x1x34
  inb_S256x64x64_S256x1x34_0_29_30 : ∀ a, (![0, 29, 30] : Fin 3 → Nat) a + S256x1x34.size a ≤ S256x64x64.size a
  h_S256x1x34 : 0 < S256x1x34.numel
  slices_S256x2016_o0_1455_S256x33 : S256x2016.Slices ![0, 1455] S256x33
  shapeCasts_S256x33_S256x1x33 : S256x33.ShapeCasts S256x1x33
  inb_S256x64x64_S256x1x33_0_30_31 : ∀ a, (![0, 30, 31] : Fin 3 → Nat) a + S256x1x33.size a ≤ S256x64x64.size a
  h_S256x1x33 : 0 < S256x1x33.numel
  slices_S256x2016_o0_1488_S256x32 : S256x2016.Slices ![0, 1488] S256x32
  shapeCasts_S256x32_S256x1x32 : S256x32.ShapeCasts S256x1x32
  inb_S256x64x64_S256x1x32_0_31_32 : ∀ a, (![0, 31, 32] : Fin 3 → Nat) a + S256x1x32.size a ≤ S256x64x64.size a
  h_S256x1x32 : 0 < S256x1x32.numel
  slices_S256x2016_o0_1520_S256x31 : S256x2016.Slices ![0, 1520] S256x31
  shapeCasts_S256x31_S256x1x31 : S256x31.ShapeCasts S256x1x31
  inb_S256x64x64_S256x1x31_0_32_33 : ∀ a, (![0, 32, 33] : Fin 3 → Nat) a + S256x1x31.size a ≤ S256x64x64.size a
  h_S256x1x31 : 0 < S256x1x31.numel
  slices_S256x2016_o0_1551_S256x30 : S256x2016.Slices ![0, 1551] S256x30
  shapeCasts_S256x30_S256x1x30 : S256x30.ShapeCasts S256x1x30
  inb_S256x64x64_S256x1x30_0_33_34 : ∀ a, (![0, 33, 34] : Fin 3 → Nat) a + S256x1x30.size a ≤ S256x64x64.size a
  h_S256x1x30 : 0 < S256x1x30.numel
  slices_S256x2016_o0_1581_S256x29 : S256x2016.Slices ![0, 1581] S256x29
  shapeCasts_S256x29_S256x1x29 : S256x29.ShapeCasts S256x1x29
  inb_S256x64x64_S256x1x29_0_34_35 : ∀ a, (![0, 34, 35] : Fin 3 → Nat) a + S256x1x29.size a ≤ S256x64x64.size a
  h_S256x1x29 : 0 < S256x1x29.numel
  slices_S256x2016_o0_1610_S256x28 : S256x2016.Slices ![0, 1610] S256x28
  shapeCasts_S256x28_S256x1x28 : S256x28.ShapeCasts S256x1x28
  inb_S256x64x64_S256x1x28_0_35_36 : ∀ a, (![0, 35, 36] : Fin 3 → Nat) a + S256x1x28.size a ≤ S256x64x64.size a
  h_S256x1x28 : 0 < S256x1x28.numel
  slices_S256x2016_o0_1638_S256x27 : S256x2016.Slices ![0, 1638] S256x27
  shapeCasts_S256x27_S256x1x27 : S256x27.ShapeCasts S256x1x27
  inb_S256x64x64_S256x1x27_0_36_37 : ∀ a, (![0, 36, 37] : Fin 3 → Nat) a + S256x1x27.size a ≤ S256x64x64.size a
  h_S256x1x27 : 0 < S256x1x27.numel
  slices_S256x2016_o0_1665_S256x26 : S256x2016.Slices ![0, 1665] S256x26
  shapeCasts_S256x26_S256x1x26 : S256x26.ShapeCasts S256x1x26
  inb_S256x64x64_S256x1x26_0_37_38 : ∀ a, (![0, 37, 38] : Fin 3 → Nat) a + S256x1x26.size a ≤ S256x64x64.size a
  h_S256x1x26 : 0 < S256x1x26.numel
  slices_S256x2016_o0_1691_S256x25 : S256x2016.Slices ![0, 1691] S256x25
  shapeCasts_S256x25_S256x1x25 : S256x25.ShapeCasts S256x1x25
  inb_S256x64x64_S256x1x25_0_38_39 : ∀ a, (![0, 38, 39] : Fin 3 → Nat) a + S256x1x25.size a ≤ S256x64x64.size a
  h_S256x1x25 : 0 < S256x1x25.numel
  slices_S256x2016_o0_1716_S256x24 : S256x2016.Slices ![0, 1716] S256x24
  shapeCasts_S256x24_S256x1x24 : S256x24.ShapeCasts S256x1x24
  inb_S256x64x64_S256x1x24_0_39_40 : ∀ a, (![0, 39, 40] : Fin 3 → Nat) a + S256x1x24.size a ≤ S256x64x64.size a
  h_S256x1x24 : 0 < S256x1x24.numel
  slices_S256x2016_o0_1740_S256x23 : S256x2016.Slices ![0, 1740] S256x23
  shapeCasts_S256x23_S256x1x23 : S256x23.ShapeCasts S256x1x23
  inb_S256x64x64_S256x1x23_0_40_41 : ∀ a, (![0, 40, 41] : Fin 3 → Nat) a + S256x1x23.size a ≤ S256x64x64.size a
  h_S256x1x23 : 0 < S256x1x23.numel
  slices_S256x2016_o0_1763_S256x22 : S256x2016.Slices ![0, 1763] S256x22
  shapeCasts_S256x22_S256x1x22 : S256x22.ShapeCasts S256x1x22
  inb_S256x64x64_S256x1x22_0_41_42 : ∀ a, (![0, 41, 42] : Fin 3 → Nat) a + S256x1x22.size a ≤ S256x64x64.size a
  h_S256x1x22 : 0 < S256x1x22.numel
  slices_S256x2016_o0_1785_S256x21 : S256x2016.Slices ![0, 1785] S256x21
  shapeCasts_S256x21_S256x1x21 : S256x21.ShapeCasts S256x1x21
  inb_S256x64x64_S256x1x21_0_42_43 : ∀ a, (![0, 42, 43] : Fin 3 → Nat) a + S256x1x21.size a ≤ S256x64x64.size a
  h_S256x1x21 : 0 < S256x1x21.numel
  slices_S256x2016_o0_1806_S256x20 : S256x2016.Slices ![0, 1806] S256x20
  shapeCasts_S256x20_S256x1x20 : S256x20.ShapeCasts S256x1x20
  inb_S256x64x64_S256x1x20_0_43_44 : ∀ a, (![0, 43, 44] : Fin 3 → Nat) a + S256x1x20.size a ≤ S256x64x64.size a
  h_S256x1x20 : 0 < S256x1x20.numel
  slices_S256x2016_o0_1826_S256x19 : S256x2016.Slices ![0, 1826] S256x19
  shapeCasts_S256x19_S256x1x19 : S256x19.ShapeCasts S256x1x19
  inb_S256x64x64_S256x1x19_0_44_45 : ∀ a, (![0, 44, 45] : Fin 3 → Nat) a + S256x1x19.size a ≤ S256x64x64.size a
  h_S256x1x19 : 0 < S256x1x19.numel
  slices_S256x2016_o0_1845_S256x18 : S256x2016.Slices ![0, 1845] S256x18
  shapeCasts_S256x18_S256x1x18 : S256x18.ShapeCasts S256x1x18
  inb_S256x64x64_S256x1x18_0_45_46 : ∀ a, (![0, 45, 46] : Fin 3 → Nat) a + S256x1x18.size a ≤ S256x64x64.size a
  h_S256x1x18 : 0 < S256x1x18.numel
  slices_S256x2016_o0_1863_S256x17 : S256x2016.Slices ![0, 1863] S256x17
  shapeCasts_S256x17_S256x1x17 : S256x17.ShapeCasts S256x1x17
  inb_S256x64x64_S256x1x17_0_46_47 : ∀ a, (![0, 46, 47] : Fin 3 → Nat) a + S256x1x17.size a ≤ S256x64x64.size a
  h_S256x1x17 : 0 < S256x1x17.numel
  slices_S256x2016_o0_1880_S256x16 : S256x2016.Slices ![0, 1880] S256x16
  shapeCasts_S256x16_S256x1x16 : S256x16.ShapeCasts S256x1x16
  inb_S256x64x64_S256x1x16_0_47_48 : ∀ a, (![0, 47, 48] : Fin 3 → Nat) a + S256x1x16.size a ≤ S256x64x64.size a
  h_S256x1x16 : 0 < S256x1x16.numel
  slices_S256x2016_o0_1896_S256x15 : S256x2016.Slices ![0, 1896] S256x15
  shapeCasts_S256x15_S256x1x15 : S256x15.ShapeCasts S256x1x15
  inb_S256x64x64_S256x1x15_0_48_49 : ∀ a, (![0, 48, 49] : Fin 3 → Nat) a + S256x1x15.size a ≤ S256x64x64.size a
  h_S256x1x15 : 0 < S256x1x15.numel
  slices_S256x2016_o0_1911_S256x14 : S256x2016.Slices ![0, 1911] S256x14
  shapeCasts_S256x14_S256x1x14 : S256x14.ShapeCasts S256x1x14
  inb_S256x64x64_S256x1x14_0_49_50 : ∀ a, (![0, 49, 50] : Fin 3 → Nat) a + S256x1x14.size a ≤ S256x64x64.size a
  h_S256x1x14 : 0 < S256x1x14.numel
  slices_S256x2016_o0_1925_S256x13 : S256x2016.Slices ![0, 1925] S256x13
  shapeCasts_S256x13_S256x1x13 : S256x13.ShapeCasts S256x1x13
  inb_S256x64x64_S256x1x13_0_50_51 : ∀ a, (![0, 50, 51] : Fin 3 → Nat) a + S256x1x13.size a ≤ S256x64x64.size a
  h_S256x1x13 : 0 < S256x1x13.numel
  slices_S256x2016_o0_1938_S256x12 : S256x2016.Slices ![0, 1938] S256x12
  shapeCasts_S256x12_S256x1x12 : S256x12.ShapeCasts S256x1x12
  inb_S256x64x64_S256x1x12_0_51_52 : ∀ a, (![0, 51, 52] : Fin 3 → Nat) a + S256x1x12.size a ≤ S256x64x64.size a
  h_S256x1x12 : 0 < S256x1x12.numel
  slices_S256x2016_o0_1950_S256x11 : S256x2016.Slices ![0, 1950] S256x11
  shapeCasts_S256x11_S256x1x11 : S256x11.ShapeCasts S256x1x11
  inb_S256x64x64_S256x1x11_0_52_53 : ∀ a, (![0, 52, 53] : Fin 3 → Nat) a + S256x1x11.size a ≤ S256x64x64.size a
  h_S256x1x11 : 0 < S256x1x11.numel
  slices_S256x2016_o0_1961_S256x10 : S256x2016.Slices ![0, 1961] S256x10
  shapeCasts_S256x10_S256x1x10 : S256x10.ShapeCasts S256x1x10
  inb_S256x64x64_S256x1x10_0_53_54 : ∀ a, (![0, 53, 54] : Fin 3 → Nat) a + S256x1x10.size a ≤ S256x64x64.size a
  h_S256x1x10 : 0 < S256x1x10.numel
  slices_S256x2016_o0_1971_S256x9 : S256x2016.Slices ![0, 1971] S256x9
  shapeCasts_S256x9_S256x1x9 : S256x9.ShapeCasts S256x1x9
  inb_S256x64x64_S256x1x9_0_54_55 : ∀ a, (![0, 54, 55] : Fin 3 → Nat) a + S256x1x9.size a ≤ S256x64x64.size a
  h_S256x1x9 : 0 < S256x1x9.numel
  slices_S256x2016_o0_1980_S256x8 : S256x2016.Slices ![0, 1980] S256x8
  shapeCasts_S256x8_S256x1x8 : S256x8.ShapeCasts S256x1x8
  inb_S256x64x64_S256x1x8_0_55_56 : ∀ a, (![0, 55, 56] : Fin 3 → Nat) a + S256x1x8.size a ≤ S256x64x64.size a
  h_S256x1x8 : 0 < S256x1x8.numel
  slices_S256x2016_o0_1988_S256x7 : S256x2016.Slices ![0, 1988] S256x7
  shapeCasts_S256x7_S256x1x7 : S256x7.ShapeCasts S256x1x7
  inb_S256x64x64_S256x1x7_0_56_57 : ∀ a, (![0, 56, 57] : Fin 3 → Nat) a + S256x1x7.size a ≤ S256x64x64.size a
  h_S256x1x7 : 0 < S256x1x7.numel
  slices_S256x2016_o0_1995_S256x6 : S256x2016.Slices ![0, 1995] S256x6
  shapeCasts_S256x6_S256x1x6 : S256x6.ShapeCasts S256x1x6
  inb_S256x64x64_S256x1x6_0_57_58 : ∀ a, (![0, 57, 58] : Fin 3 → Nat) a + S256x1x6.size a ≤ S256x64x64.size a
  h_S256x1x6 : 0 < S256x1x6.numel
  slices_S256x2016_o0_2001_S256x5 : S256x2016.Slices ![0, 2001] S256x5
  shapeCasts_S256x5_S256x1x5 : S256x5.ShapeCasts S256x1x5
  inb_S256x64x64_S256x1x5_0_58_59 : ∀ a, (![0, 58, 59] : Fin 3 → Nat) a + S256x1x5.size a ≤ S256x64x64.size a
  h_S256x1x5 : 0 < S256x1x5.numel
  slices_S256x2016_o0_2006_S256x4 : S256x2016.Slices ![0, 2006] S256x4
  shapeCasts_S256x4_S256x1x4 : S256x4.ShapeCasts S256x1x4
  inb_S256x64x64_S256x1x4_0_59_60 : ∀ a, (![0, 59, 60] : Fin 3 → Nat) a + S256x1x4.size a ≤ S256x64x64.size a
  h_S256x1x4 : 0 < S256x1x4.numel
  slices_S256x2016_o0_2010_S256x3 : S256x2016.Slices ![0, 2010] S256x3
  shapeCasts_S256x3_S256x1x3 : S256x3.ShapeCasts S256x1x3
  inb_S256x64x64_S256x1x3_0_60_61 : ∀ a, (![0, 60, 61] : Fin 3 → Nat) a + S256x1x3.size a ≤ S256x64x64.size a
  h_S256x1x3 : 0 < S256x1x3.numel
  slices_S256x2016_o0_2013_S256x2 : S256x2016.Slices ![0, 2013] S256x2
  shapeCasts_S256x2_S256x1x2 : S256x2.ShapeCasts S256x1x2
  inb_S256x64x64_S256x1x2_0_61_62 : ∀ a, (![0, 61, 62] : Fin 3 → Nat) a + S256x1x2.size a ≤ S256x64x64.size a
  h_S256x1x2 : 0 < S256x1x2.numel
  slices_S256x2016_o0_2015_S256x1 : S256x2016.Slices ![0, 2015] S256x1
  shapeCasts_S256x1_S256x1x1 : S256x1.ShapeCasts S256x1x1
  inb_S256x64x64_S256x1x1_0_62_63 : ∀ a, (![0, 62, 63] : Fin 3 → Nat) a + S256x1x1.size a ≤ S256x64x64.size a
  h_S256x1x1 : 0 < S256x1x1.numel
  shapeCasts_S256x64x64_S256x64x64 : S256x64x64.ShapeCasts S256x64x64
  transposes_S256x64x64_p0_2_1_S256x64x64 : S256x64x64.Transposes [0, 2, 1] S256x64x64
  dot_S256x64_S64x128_S256x128_1_0_0_1_n_n_wf : DotDims.WF S256x64 S64x128 S256x128 [1] [0] [0] [1] [] []
  dot_S256x128_S128x2016_S256x2016_1_0_0_1_n_n_wf : DotDims.WF S256x128 S128x2016 S256x2016 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S16384x64.size a
  hwx0_0 : ∀ i : grid0.Coords, EltTy.bits .f32 = 32 ∨ (Rect.block (s := S16384x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2016.size a ≤ S128x2016.size a
  hwx0_3 : ∀ i : grid0.Coords, EltTy.bits .bf16 = 32 ∨ (Rect.block (s := S128x2016) S128x2016.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2016.size a ≤ S1x2016.size a
  hwx0_4 : ∀ i : grid0.Coords, EltTy.bits .f32 = 32 ∨ (Rect.block (s := S1x2016) S1x2016.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64x64.size a ≤ S16384x64x64.size a
  hwx0_5 : ∀ i : grid0.Coords, EltTy.bits .f32 = 32 ∨ (Rect.block (s := S16384x64x64) S256x64x64.size (cc0_transform_5 i) (hinb0_5 i)).WholeWords (EltTy.packing .f32)

variable [Facts₀]

def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x128_S128x2016_S256x2016_1_0_0_1_n_n : DotDims S256x128 S128x2016 S256x2016 where
  lhsContracting := [1]
  rhsContracting := [0]
  lhsNonContracting := [0]
  rhsNonContracting := [1]
  lhsBatch := []
  rhsBatch := []
  wf := dot_S256x128_S128x2016_S256x2016_1_0_0_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x2016.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2016.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x64 : Shape := ⟨2, ![16384, 64]⟩
abbrev S128x64 : Shape := ⟨2, ![128, 64]⟩
abbrev S128 : Shape := ⟨1, ![128]⟩
abbrev S2016x128 : Shape := ⟨2, ![2016, 128]⟩
abbrev S2016 : Shape := ⟨1, ![2016]⟩
abbrev S64x128 : Shape := ⟨2, ![64, 128]⟩
abbrev S16384x128 : Shape := ⟨2, ![16384, 128]⟩
abbrev S1x128 : Shape := ⟨2, ![1, 128]⟩
abbrev S128x2016 : Shape := ⟨2, ![128, 2016]⟩
abbrev S16384x2016 : Shape := ⟨2, ![16384, 2016]⟩
abbrev S1x2016 : Shape := ⟨2, ![1, 2016]⟩
abbrev S_ : Shape := ⟨0, ![]⟩
abbrev S16384x64x64 : Shape := ⟨3, ![16384, 64, 64]⟩
abbrev S2016x1 : Shape := ⟨2, ![2016, 1]⟩
abbrev S2016x2 : Shape := ⟨2, ![2016, 2]⟩

abbrev nBuf : Space → Nat
  | .hbm => 36
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S128x64, .f32⟩
  | .hbm, ⟨2, _⟩ => ⟨S128, .f32⟩
  | .hbm, ⟨3, _⟩ => ⟨S2016x128, .f32⟩
  | .hbm, ⟨4, _⟩ => ⟨S2016, .f32⟩
  | .hbm, ⟨5, _⟩ => ⟨S2016, .i32⟩
  | .hbm, ⟨6, _⟩ => ⟨S2016, .i1⟩
  | .hbm, ⟨7, _⟩ => ⟨S2016, .i32⟩
  | .hbm, ⟨8, _⟩ => ⟨S2016, .i1⟩
  | .hbm, ⟨9, _⟩ => ⟨S64x128, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S128x2016, .f32⟩
  | .hbm, ⟨16, _⟩ => ⟨S16384x2016, .f32⟩
  | .hbm, ⟨17, _⟩ => ⟨S1x2016, .f32⟩
  | .hbm, ⟨18, _⟩ => ⟨S16384x2016, .f32⟩
  | .hbm, ⟨19, _⟩ => ⟨S16384x2016, .f32⟩
  | .hbm, ⟨20, _⟩ => ⟨S_, .f32⟩
  | .hbm, ⟨21, _⟩ => ⟨S16384x64x64, .f32⟩
  | .hbm, ⟨22, _⟩ => ⟨S_, .i32⟩
  | .hbm, ⟨23, _⟩ => ⟨S2016, .i32⟩
  | .hbm, ⟨24, _⟩ => ⟨S2016, .i32⟩
  | .hbm, ⟨25, _⟩ => ⟨S2016, .i32⟩
  | .hbm, ⟨26, _⟩ => ⟨S_, .i32⟩
  | .hbm, ⟨27, _⟩ => ⟨S2016, .i32⟩
  | .hbm, ⟨28, _⟩ => ⟨S2016, .i32⟩
  | .hbm, ⟨29, _⟩ => ⟨S2016, .i32⟩
  | .hbm, ⟨30, _⟩ => ⟨S2016x1, .i32⟩
  | .hbm, ⟨31, _⟩ => ⟨S2016x1, .i32⟩
  | .hbm, ⟨32, _⟩ => ⟨S2016x2, .i32⟩
  | .hbm, ⟨33, _⟩ => ⟨S16384x64x64, .f32⟩
  | .hbm, ⟨34, _⟩ => ⟨S16384x64x64, .f32⟩
  | .hbm, ⟨35, _⟩ => ⟨S16384x64x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S2016x128_S128x2016_1_0 : S2016x128.Transposes [1, 0] S128x2016
  bcast_S2016_S1x2016_1 : S2016.BroadcastsInDim S1x2016 (![1] : Fin 1 → Fin S1x2016.rank)
  bcast_S1x2016_S16384x2016_0_1 : S1x2016.BroadcastsInDim S16384x2016 (![0, 1] : Fin 2 → Fin S16384x2016.rank)
  bcast_S_S16384x64x64 : S_.BroadcastsInDim S16384x64x64 (![] : Fin 0 → Fin S16384x64x64.rank)
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  transposes_S16384x64x64_S16384x64x64_0_2_1 : S16384x64x64.Transposes [0, 2, 1] S16384x64x64
  dot_S16384x64_S64x128_S16384x128_1_0_0_1_n_n_wf : DotDims.WF S16384x64 S64x128 S16384x128 [1] [0] [0] [1] [] []
  dot_S16384x128_S128x2016_S16384x2016_1_0_0_1_n_n_wf : DotDims.WF S16384x128 S128x2016 S16384x2016 [1] [0] [0] [1] [] []
  scatter_S16384x64x64_S2016x2_S16384x2016_0_12_12_1_wf : ScatterDims.WF S16384x64x64 S2016x2 S16384x2016 [0] [1, 2] [1, 2] 1

variable [Facts₀]

def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x2016_S16384x2016_1_0_0_1_n_n : DotDims S16384x128 S128x2016 S16384x2016 where
  lhsContracting := [1]
  rhsContracting := [0]
  lhsNonContracting := [0]
  rhsNonContracting := [1]
  lhsBatch := []
  rhsBatch := []
  wf := dot_S16384x128_S128x2016_S16384x2016_1_0_0_1_n_n_wf
def scatter_S16384x64x64_S2016x2_S16384x2016_0_12_12_1 : ScatterDims S16384x64x64 S2016x2 S16384x2016 where
  updateWindowDims := [0]
  insertedWindowDims := [1, 2]
  scatterDimsToOperandDims := [1, 2]
  indexVectorDim := 1
  wf := scatter_S16384x64x64_S2016x2_S16384x2016_0_12_12_1_wf

class Facts : Prop extends Facts₀ where

variable [Facts]
-- ==== Proof.Spec.lean ====
/-
  The function both programs compute, index by index, over the extended reals.

  A batch row r of x goes through a two-layer perceptron: the hidden vector is
  tanh (x_r · W1ᵀ + b1) (128 entries), the parameter vector is hidden · W2ᵀ + b2 (2016 entries).
  The 2016 parameters fill the strict upper triangle of a 64 × 64 matrix U_r row by row:
  the pair (i, j) with i < j is number tri i j = i (127 - i) / 2 + (j - i - 1) of the row-major
  enumeration (0,1), (0,2), …, (0,63), (1,2), …, (62,63), since row i' contributes 63 - i' pairs.
  Everywhere else U_r holds the zero word. The result is the skew-symmetric matrix U_r - U_rᵀ.
-/
import Idealize.ShloMosaic.PureOps.Ideal
import Idealize.ShloMosaic.Lib.ValueIdx

noncomputable section

namespace Cert.Skew

open Idealize.ShloMosaic Idealize.ShloMosaic.ValueIdx

/-- The number of the pair (i, j), i < j < 64, in the row-major enumeration of the strict upper triangle of a
    64 × 64 matrix: rows 0 … i - 1 hold 63 + 62 + … + (64 - i) = i (127 - i) / 2 pairs, and (i, j) is pair
    j - i - 1 of row i. -/
def tri (i j : Nat) : Nat := i * (127 - i) / 2 + (j - i - 1)

/-- The enumeration stays below the number of pairs, 2016 = 64 · 63 / 2. -/
theorem tri_lt (i j : Fin 64) (h : i.val < j.val) : tri i.val j.val < 2016 := by
  revert i j
  decide +kernel

/-- The hidden layer at batch row r and hidden unit h: tanh of the row's product with row h of W1 plus the bias. -/
def hid (x : (⟨2, ![16384, 64]⟩ : Shape).Idx → EReal) (W1 : (⟨2, ![128, 64]⟩ : Shape).Idx → EReal)
    (b1 : (⟨1, ![128]⟩ : Shape).Idx → EReal) (r : Fin 16384) (h : Fin 128) : EReal :=
  Ideal.tanh ((∑ d : Fin 64, x (ix2 r d) * W1 (ix2 h d)) + b1 (ix1 h))

/-- The parameter vector at batch row r and position k: the hidden vector's product with row k of W2 plus the bias. -/
def par (x : (⟨2, ![16384, 64]⟩ : Shape).Idx → EReal) (W1 : (⟨2, ![128, 64]⟩ : Shape).Idx → EReal)
    (b1 : (⟨1, ![128]⟩ : Shape).Idx → EReal) (W2 : (⟨2, ![2016, 128]⟩ : Shape).Idx → EReal)
    (b2 : (⟨1, ![2016]⟩ : Shape).Idx → EReal) (r : Fin 16384) (k : Fin 2016) : EReal :=
  (∑ h : Fin 128, hid x W1 b1 r h * W2 (ix2 k h)) + b2 (ix1 k)

/-- The upper-triangular matrix of batch row r at (i, j): the parameter number tri i j above the diagonal, the zero
    word on and below it. -/
def upper (x : (⟨2, ![16384, 64]⟩ : Shape).Idx → EReal) (W1 : (⟨2, ![128, 64]⟩ : Shape).Idx → EReal)
    (b1 : (⟨1, ![128]⟩ : Shape).Idx → EReal) (W2 : (⟨2, ![2016, 128]⟩ : Shape).Idx → EReal)
    (b2 : (⟨1, ![2016]⟩ : Shape).Idx → EReal) (r : Fin 16384) (i j : Fin 64) : EReal :=
  if h : i.val < j.val then par x W1 b1 W2 b2 r ⟨tri i.val j.val, tri_lt i j h⟩ else Ideal.ofBits .f32 0x00000000#32

/-- The result at (r, i, j): the upper-triangular matrix minus its transpose. -/
def skew (x : (⟨2, ![16384, 64]⟩ : Shape).Idx → EReal) (W1 : (⟨2, ![128, 64]⟩ : Shape).Idx → EReal)
    (b1 : (⟨1, ![128]⟩ : Shape).Idx → EReal) (W2 : (⟨2, ![2016, 128]⟩ : Shape).Idx → EReal)
    (b2 : (⟨1, ![2016]⟩ : Shape).Idx → EReal) (r : Fin 16384) (i j : Fin 64) : EReal :=
  upper x W1 b1 W2 b2 r i j - upper x W1 b1 W2 b2 r j i

/-- The whole result array. -/
def skewArr (x : (⟨2, ![16384, 64]⟩ : Shape).Idx → EReal) (W1 : (⟨2, ![128, 64]⟩ : Shape).Idx → EReal)
    (b1 : (⟨1, ![128]⟩ : Shape).Idx → EReal) (W2 : (⟨2, ![2016, 128]⟩ : Shape).Idx → EReal)
    (b2 : (⟨1, ![2016]⟩ : Shape).Idx → EReal) : (⟨3, ![16384, 64, 64]⟩ : Shape).Idx → EReal :=
  fun y => skew x W1 b1 W2 b2 (y 0) (y 1) (y 2)

theorem skewArr_ix3 (x : (⟨2, ![16384, 64]⟩ : Shape).Idx → EReal) (W1 : (⟨2, ![128, 64]⟩ : Shape).Idx → EReal)
    (b1 : (⟨1, ![128]⟩ : Shape).Idx → EReal) (W2 : (⟨2, ![2016, 128]⟩ : Shape).Idx → EReal)
    (b2 : (⟨1, ![2016]⟩ : Shape).Idx → EReal) (r : Fin 16384) (i j : Fin 64) :
    skewArr x W1 b1 W2 b2 (ix3 r i j) = skew x W1 b1 W2 b2 r i j := rfl

end Cert.Skew

end
-- ==== Proof.KFill.lean ====
/-
  A 64 × 64 block filled row by row above the diagonal, read back as one function.

  A buffer of shape [256, 64, 64] is first filled with a value z, and then, for k = 0, 1, …, 62, the piece
  [256, 1, 63 - k] at offsets (0, k, k + 1) — row k of every matrix, the columns right of the diagonal — is overwritten
  with the columns off(k) … off(k) + 62 - k of a [256, 2016] array v, where off(k) = k (127 - k) / 2 is the number of
  pairs (i, j), i < j < 64, with i < k. The pieces are pairwise disjoint (they lie in different rows), so after the
  first k of them the buffer holds, at (b, i, j), the entry v (b, tri i j) when i < j and i < k, and z otherwise:
  tri i j = off(i) + (j - i - 1) is the column the piece of row i reads for column j. This is proved one piece at a
  time (canon_fill_step), from the fill (canon_fill_base).
-/
import proofs.«117296_j54039278518768_2_alg».proof.Proof.Spec
import Idealize.ShloMosaic.Lib.Pipeline.Value
import Idealize.ShloMosaic.Lib.Pipeline.FrameBody

noncomputable section

namespace Cert.Skew

open Idealize.ShloMosaic Idealize.ShloMosaic.ValueIdx

variable {Val : EltTy → Type} [∀ e, Nonempty (Val e)] {e : EltTy}

/-- The buffer after the rows below k have been written: v (b, tri i j) above the diagonal in the rows i < k,
    the fill value z elsewhere. -/
def fillBelow (z : Val e) (v : (⟨2, ![256, 2016]⟩ : Shape).Idx → Val e) (k : Nat) :
    (⟨3, ![256, 64, 64]⟩ : Shape).Idx → Val e :=
  fun y => if h : (y 1).val < (y 2).val ∧ (y 1).val < k then v (ix2 (y 0) ⟨tri (y 1).val (y 2).val, tri_lt (y 1) (y 2) h.1⟩) else z

theorem fillBelow_ix3 (z : Val e) (v : (⟨2, ![256, 2016]⟩ : Shape).Idx → Val e) (k : Nat) (b : Fin 256) (i j : Fin 64) :
    fillBelow z v k (ix3 b i j)
      = if h : i.val < j.val ∧ i.val < k then v (ix2 b ⟨tri i.val j.val, tri_lt i j h.1⟩) else z := rfl

/-- A slice of L columns from column off of a [256, 2016] array, given a unit middle axis, reads at (b, 0, q) the
    array's entry (b, off + q). -/
theorem seg_apply {α : Type} (L off : Nat) (v : (⟨2, ![256, 2016]⟩ : Shape).Idx → α)
    (hs : (⟨2, ![256, 2016]⟩ : Shape).Slices ![0, off] ⟨2, ![256, L]⟩)
    (hc : (⟨2, ![256, L]⟩ : Shape).ShapeCasts ⟨3, ![256, 1, L]⟩)
    (b : Fin 256) (u : Fin 1) (q : Fin L) (h : off + q.val < 2016) :
    shapeCast ⟨3, ![256, 1, L]⟩ (extractStridedSlice ⟨2, ![256, L]⟩ ![0, off] v hs) hc (ix3 b u q)
      = v (ix2 b ⟨off + q.val, h⟩) := by
  refine (shapeCast_apply _ hc (ix3 b u q) (ix2 b q) ?_).trans
    (extractStridedSlice_apply _ v hs (ix2 b q) (ix2 b ⟨off + q.val, h⟩) fun a => ?_)
  · rw [Shape.rowMajor_val_two, Shape.rowMajor_val_three]
    show b.val * L + q.val = (b.val * 1 + u.val) * L + q.val
    have := u.isLt
    have hu : u.val = 0 := by omega
    rw [hu, Nat.mul_one, Nat.add_zero]
  · match a with
    | ⟨0, _⟩ => show b.val = 0 + b.val; omega
    | ⟨1, _⟩ => rfl

/-- The fill: one piece over the whole buffer with every entry z. -/
theorem canon_fill_base (z : Val e) (v : (⟨2, ![256, 2016]⟩ : Shape).Idx → Val e)
    {off : Fin 3 → Nat} (hz : off = fun _ => 0)
    (inb : ∀ a, off a + (⟨3, ![256, 64, 64]⟩ : Shape).size a ≤ (⟨3, ![256, 64, 64]⟩ : Shape).size a)
    (w : (⟨3, ![256, 64, 64]⟩ : Shape).Idx → Val e) (hw : ∀ y, w y = z) :
    View.canon [(⟨Rect.unit off (⟨3, ![256, 64, 64]⟩ : Shape).size inb, w⟩ : View.Piece Val ⟨3, ![256, 64, 64]⟩ e)]
      = fillBelow z v 0 := by
  rw [View.canon_unit_zero hz]
  funext y
  rw [hw y]
  unfold fillBelow
  rw [dif_neg (fun h => Nat.not_lt_zero _ h.2)]

/-- One more row: over a buffer holding the rows below k, the piece of row k (L = 63 - k columns from column k + 1,
    read from the columns off = k (127 - k) / 2 onwards of v) leaves the rows below k + 1. -/
theorem canon_fill_step (z : Val e) (v : (⟨2, ![256, 2016]⟩ : Shape).Idx → Val e) (k L off : Nat)
    (hk : k + 1 + L = 64) (hoff : off = k * (127 - k) / 2)
    (inb : ∀ a, (![0, k, k + 1] : Fin 3 → Nat) a + (![256, 1, L] : Fin 3 → Nat) a ≤ (⟨3, ![256, 64, 64]⟩ : Shape).size a)
    (w : (⟨3, ![256, 1, L]⟩ : Shape).Idx → Val e)
    (hw : ∀ (b : Fin 256) (u : Fin 1) (q : Fin L) (h : off + q.val < 2016), w (ix3 b u q) = v (ix2 b ⟨off + q.val, h⟩))
    (Lk : List (View.Piece Val ⟨3, ![256, 64, 64]⟩ e)) (hprev : View.canon Lk = fillBelow z v k) :
    View.canon ((⟨Rect.unit (s := ⟨3, ![256, 64, 64]⟩) ![0, k, k + 1] ![256, 1, L] inb, w⟩ : View.Piece Val ⟨3, ![256, 64, 64]⟩ e) :: Lk)
      = fillBelow z v (k + 1) := by
  funext y
  obtain ⟨b, i, j, rfl⟩ : ∃ (b : Fin 256) (i j : Fin 64), y = ix3 b i j := ⟨y 0, y 1, y 2, eq_ix3 y⟩
  have hj64 := j.isLt
  by_cases hm : i.val = k ∧ k + 1 ≤ j.val
  · obtain ⟨hi, hj⟩ := hm
    have hjL : j.val - (k + 1) < L := by omega
    have hy : (Rect.unit (s := ⟨3, ![256, 64, 64]⟩) ![0, k, k + 1] ![256, 1, L] inb).emb
        (ix3 b (0 : Fin 1) (⟨j.val - (k + 1), hjL⟩ : Fin L)) = ix3 b i j := by
      funext a
      apply Fin.ext
      match a with
      | ⟨0, _⟩ => show 0 + 1 * b.val = b.val; omega
      | ⟨1, _⟩ => show k + 1 * 0 = i.val; omega
      | ⟨2, _⟩ => show (k + 1) + 1 * (j.val - (k + 1)) = j.val; omega
    have hlt : i.val < j.val := by omega
    have htri : off + (j.val - (k + 1)) = tri i.val j.val := by
      unfold tri; rw [hoff, hi]; omega
    have h2016 : off + (j.val - (k + 1)) < 2016 := by rw [htri]; exact tri_lt i j hlt
    rw [← hy, View.canon_cons_emb, hw b 0 ⟨j.val - (k + 1), hjL⟩ h2016, hy, fillBelow_ix3,
      dif_pos ⟨hlt, by omega⟩]
    exact congrArg v (congrArg (ix2 b) (Fin.ext htri))
  · have hnm : ix3 b i j ∉ (Rect.unit (s := ⟨3, ![256, 64, 64]⟩) ![0, k, k + 1] ![256, 1, L] inb).set := by
      rw [Rect.mem_set_unit]
      intro h
      have h1 := h ⟨1, by decide⟩
      have h2 := h ⟨2, by decide⟩
      have h1' : k ≤ i.val ∧ i.val < k + 1 := h1
      have h2' : k + 1 ≤ j.val ∧ j.val < k + 1 + L := h2
      exact hm ⟨by omega, h2'.1⟩
    rw [View.canon_cons_of_not_mem
      (⟨Rect.unit (s := ⟨3, ![256, 64, 64]⟩) ![0, k, k + 1] ![256, 1, L] inb, w⟩ : View.Piece Val ⟨3, ![256, 64, 64]⟩ e)
      Lk (y := ix3 b i j) hnm, hprev, fillBelow_ix3, fillBelow_ix3]
    by_cases h1 : i.val < j.val ∧ i.val < k
    · rw [dif_pos h1, dif_pos ⟨h1.1, by omega⟩]
    · rw [dif_neg h1, dif_neg (fun h => h1 ⟨h.1, by
        rcases Nat.lt_or_ge i.val k with hlt | hge
        · exact hlt
        · exact absurd ⟨by omega, by omega⟩ hm⟩)]

end Cert.Skew

end
-- ==== Proof.KSegs.lean ====
/-
  The 64 stores of the body into its output block, as a table.

  The body first fills the block [256, 64, 64] with the zero word, and then writes, for k = 0 … 62, row k of every
  matrix right of the diagonal (the piece [256, 1, 63 - k] at offsets (0, k, k + 1)) from the columns
  k (127 - k) / 2 … of the parameter block. `segs` lists the stores, last first; `canon_segs` reads the block back as one
  function by one step per row (the step and the fill are proved once, for any row).
-/
import proofs.«117296_j54039278518768_2_alg».proof.Proof.Gen.KernelIdeal.Skeleton
import proofs.«117296_j54039278518768_2_alg».proof.Proof.KFill

set_option maxRecDepth 16384

noncomputable section

namespace Cert.KernelIdeal.Body

open Cert.KernelIdeal Cert.KernelIdeal.Gen Idealize.ShloMosaic Idealize.ShloMosaic.TcCoe Idealize.ShloMosaic.ValueIdx

variable {F : FTy → Type} [FloatOps F]

/-- The stores into the output block, last first. -/
def segs (x0 : Vec F S256x64 .f32) (x1 : Vec F S64x128 .bf16) (x2 : Vec F S1x128 .f32) (x3 : Vec F S128x2016 .bf16)
    (x4 : Vec F S1x2016 .f32) : List (View.Piece (Elt F) S256x64x64 .f32) :=
  [
    ⟨Rect.unit ![0, 62, 63] S256x1x1.size inb_S256x64x64_S256x1x1_0_62_63, k0_pay67 (k0_pay2 x0 x1 x2 x3 x4)⟩,
    ⟨Rect.unit ![0, 61, 62] S256x1x2.size inb_S256x64x64_S256x1x2_0_61_62, k0_pay66 (k0_pay2 x0 x1 x2 x3 x4)⟩,
    ⟨Rect.unit ![0, 60, 61] S256x1x3.size inb_S256x64x64_S256x1x3_0_60_61, k0_pay65 (k0_pay2 x0 x1 x2 x3 x4)⟩,
    ⟨Rect.unit ![0, 59, 60] S256x1x4.size inb_S256x64x64_S256x1x4_0_59_60, k0_pay64 (k0_pay2 x0 x1 x2 x3 x4)⟩,
    ⟨Rect.unit ![0, 58, 59] S256x1x5.size inb_S256x64x64_S256x1x5_0_58_59, k0_pay63 (k0_pay2 x0 x1 x2 x3 x4)⟩,
    ⟨Rect.unit ![0, 57, 58] S256x1x6.size inb_S256x64x64_S256x1x6_0_57_58, k0_pay62 (k0_pay2 x0 x1 x2 x3 x4)⟩,
    ⟨Rect.unit ![0, 56, 57] S256x1x7.size inb_S256x64x64_S256x1x7_0_56_57, k0_pay61 (k0_pay2 x0 x1 x2 x3 x4)⟩,
    ⟨Rect.unit ![0, 55, 56] S256x1x8.size inb_S256x64x64_S256x1x8_0_55_56, k0_pay60 (k0_pay2 x0 x1 x2 x3 x4)⟩,
    ⟨Rect.unit ![0, 54, 55] S256x1x9.size inb_S256x64x64_S256x1x9_0_54_55, k0_pay59 (k0_pay2 x0 x1 x2 x3 x4)⟩,
    ⟨Rect.unit ![0, 53, 54] S256x1x10.size inb_S256x64x64_S256x1x10_0_53_54, k0_pay58 (k0_pay2 x0 x1 x2 x3 x4)⟩,
    ⟨Rect.unit ![0, 52, 53] S256x1x11.size inb_S256x64x64_S256x1x11_0_52_53, k0_pay57 (k0_pay2 x0 x1 x2 x3 x4)⟩,
    ⟨Rect.unit ![0, 51, 52] S256x1x12.size inb_S256x64x64_S256x1x12_0_51_52, k0_pay56 (k0_pay2 x0 x1 x2 x3 x4)⟩,
    ⟨Rect.unit ![0, 50, 51] S256x1x13.size inb_S256x64x64_S256x1x13_0_50_51, k0_pay55 (k0_pay2 x0 x1 x2 x3 x4)⟩,
    ⟨Rect.unit ![0, 49, 50] S256x1x14.size inb_S256x64x64_S256x1x14_0_49_50, k0_pay54 (k0_pay2 x0 x1 x2 x3 x4)⟩,
    ⟨Rect.unit ![0, 48, 49] S256x1x15.size inb_S256x64x64_S256x1x15_0_48_49, k0_pay53 (k0_pay2 x0 x1 x2 x3 x4)⟩,
    ⟨Rect.unit ![0, 47, 48] S256x1x16.size inb_S256x64x64_S256x1x16_0_47_48, k0_pay52 (k0_pay2 x0 x1 x2 x3 x4)⟩,
    ⟨Rect.unit ![0, 46, 47] S256x1x17.size inb_S256x64x64_S256x1x17_0_46_47, k0_pay51 (k0_pay2 x0 x1 x2 x3 x4)⟩,
    ⟨Rect.unit ![0, 45, 46] S256x1x18.size inb_S256x64x64_S256x1x18_0_45_46, k0_pay50 (k0_pay2 x0 x1 x2 x3 x4)⟩,
    ⟨Rect.unit ![0, 44, 45] S256x1x19.size inb_S256x64x64_S256x1x19_0_44_45, k0_pay49 (k0_pay2 x0 x1 x2 x3 x4)⟩,
    ⟨Rect.unit ![0, 43, 44] S256x1x20.size inb_S256x64x64_S256x1x20_0_43_44, k0_pay48 (k0_pay2 x0 x1 x2 x3 x4)⟩,
    ⟨Rect.unit ![0, 42, 43] S256x1x21.size inb_S256x64x64_S256x1x21_0_42_43, k0_pay47 (k0_pay2 x0 x1 x2 x3 x4)⟩,
    ⟨Rect.unit ![0, 41, 42] S256x1x22.size inb_S256x64x64_S256x1x22_0_41_42, k0_pay46 (k0_pay2 x0 x1 x2 x3 x4)⟩,
    ⟨Rect.unit ![0, 40, 41] S256x1x23.size inb_S256x64x64_S256x1x23_0_40_41, k0_pay45 (k0_pay2 x0 x1 x2 x3 x4)⟩,
    ⟨Rect.unit ![0, 39, 40] S256x1x24.size inb_S256x64x64_S256x1x24_0_39_40, k0_pay44 (k0_pay2 x0 x1 x2 x3 x4)⟩,
    ⟨Rect.unit ![0, 38, 39] S256x1x25.size inb_S256x64x64_S256x1x25_0_38_39, k0_pay43 (k0_pay2 x0 x1 x2 x3 x4)⟩,
    ⟨Rect.unit ![0, 37, 38] S256x1x26.size inb_S256x64x64_S256x1x26_0_37_38, k0_pay42 (k0_pay2 x0 x1 x2 x3 x4)⟩,
    ⟨Rect.unit ![0, 36, 37] S256x1x27.size inb_S256x64x64_S256x1x27_0_36_37, k0_pay41 (k0_pay2 x0 x1 x2 x3 x4)⟩,
    ⟨Rect.unit ![0, 35, 36] S256x1x28.size inb_S256x64x64_S256x1x28_0_35_36, k0_pay40 (k0_pay2 x0 x1 x2 x3 x4)⟩,
    ⟨Rect.unit ![0, 34, 35] S256x1x29.size inb_S256x64x64_S256x1x29_0_34_35, k0_pay39 (k0_pay2 x0 x1 x2 x3 x4)⟩,
    ⟨Rect.unit ![0, 33, 34] S256x1x30.size inb_S256x64x64_S256x1x30_0_33_34, k0_pay38 (k0_pay2 x0 x1 x2 x3 x4)⟩,
    ⟨Rect.unit ![0, 32, 33] S256x1x31.size inb_S256x64x64_S256x1x31_0_32_33, k0_pay37 (k0_pay2 x0 x1 x2 x3 x4)⟩,
    ⟨Rect.unit ![0, 31, 32] S256x1x32.size inb_S256x64x64_S256x1x32_0_31_32, k0_pay36 (k0_pay2 x0 x1 x2 x3 x4)⟩,
    ⟨Rect.unit ![0, 30, 31] S256x1x33.size inb_S256x64x64_S256x1x33_0_30_31, k0_pay35 (k0_pay2 x0 x1 x2 x3 x4)⟩,
    ⟨Rect.unit ![0, 29, 30] S256x1x34.size inb_S256x64x64_S256x1x34_0_29_30, k0_pay34 (k0_pay2 x0 x1 x2 x3 x4)⟩,
    ⟨Rect.unit ![0, 28, 29] S256x1x35.size inb_S256x64x64_S256x1x35_0_28_29, k0_pay33 (k0_pay2 x0 x1 x2 x3 x4)⟩,
    ⟨Rect.unit ![0, 27, 28] S256x1x36.size inb_S256x64x64_S256x1x36_0_27_28, k0_pay32 (k0_pay2 x0 x1 x2 x3 x4)⟩,
    ⟨Rect.unit ![0, 26, 27] S256x1x37.size inb_S256x64x64_S256x1x37_0_26_27, k0_pay31 (k0_pay2 x0 x1 x2 x3 x4)⟩,
    ⟨Rect.unit ![0, 25, 26] S256x1x38.size inb_S256x64x64_S256x1x38_0_25_26, k0_pay30 (k0_pay2 x0 x1 x2 x3 x4)⟩,
    ⟨Rect.unit ![0, 24, 25] S256x1x39.size inb_S256x64x64_S256x1x39_0_24_25, k0_pay29 (k0_pay2 x0 x1 x2 x3 x4)⟩,
    ⟨Rect.unit ![0, 23, 24] S256x1x40.size inb_S256x64x64_S256x1x40_0_23_24, k0_pay28 (k0_pay2 x0 x1 x2 x3 x4)⟩,
    ⟨Rect.unit ![0, 22, 23] S256x1x41.size inb_S256x64x64_S256x1x41_0_22_23, k0_pay27 (k0_pay2 x0 x1 x2 x3 x4)⟩,
    ⟨Rect.unit ![0, 21, 22] S256x1x42.size inb_S256x64x64_S256x1x42_0_21_22, k0_pay26 (k0_pay2 x0 x1 x2 x3 x4)⟩,
    ⟨Rect.unit ![0, 20, 21] S256x1x43.size inb_S256x64x64_S256x1x43_0_20_21, k0_pay25 (k0_pay2 x0 x1 x2 x3 x4)⟩,
    ⟨Rect.unit ![0, 19, 20] S256x1x44.size inb_S256x64x64_S256x1x44_0_19_20, k0_pay24 (k0_pay2 x0 x1 x2 x3 x4)⟩,
    ⟨Rect.unit ![0, 18, 19] S256x1x45.size inb_S256x64x64_S256x1x45_0_18_19, k0_pay23 (k0_pay2 x0 x1 x2 x3 x4)⟩,
    ⟨Rect.unit ![0, 17, 18] S256x1x46.size inb_S256x64x64_S256x1x46_0_17_18, k0_pay22 (k0_pay2 x0 x1 x2 x3 x4)⟩,
    ⟨Rect.unit ![0, 16, 17] S256x1x47.size inb_S256x64x64_S256x1x47_0_16_17, k0_pay21 (k0_pay2 x0 x1 x2 x3 x4)⟩,
    ⟨Rect.unit ![0, 15, 16] S256x1x48.size inb_S256x64x64_S256x1x48_0_15_16, k0_pay20 (k0_pay2 x0 x1 x2 x3 x4)⟩,
    ⟨Rect.unit ![0, 14, 15] S256x1x49.size inb_S256x64x64_S256x1x49_0_14_15, k0_pay19 (k0_pay2 x0 x1 x2 x3 x4)⟩,
    ⟨Rect.unit ![0, 13, 14] S256x1x50.size inb_S256x64x64_S256x1x50_0_13_14, k0_pay18 (k0_pay2 x0 x1 x2 x3 x4)⟩,
    ⟨Rect.unit ![0, 12, 13] S256x1x51.size inb_S256x64x64_S256x1x51_0_12_13, k0_pay17 (k0_pay2 x0 x1 x2 x3 x4)⟩,
    ⟨Rect.unit ![0, 11, 12] S256x1x52.size inb_S256x64x64_S256x1x52_0_11_12, k0_pay16 (k0_pay2 x0 x1 x2 x3 x4)⟩,
    ⟨Rect.unit ![0, 10, 11] S256x1x53.size inb_S256x64x64_S256x1x53_0_10_11, k0_pay15 (k0_pay2 x0 x1 x2 x3 x4)⟩,
    ⟨Rect.unit ![0, 9, 10] S256x1x54.size inb_S256x64x64_S256x1x54_0_9_10, k0_pay14 (k0_pay2 x0 x1 x2 x3 x4)⟩,
    ⟨Rect.unit ![0, 8, 9] S256x1x55.size inb_S256x64x64_S256x1x55_0_8_9, k0_pay13 (k0_pay2 x0 x1 x2 x3 x4)⟩,
    ⟨Rect.unit ![0, 7, 8] S256x1x56.size inb_S256x64x64_S256x1x56_0_7_8, k0_pay12 (k0_pay2 x0 x1 x2 x3 x4)⟩,
    ⟨Rect.unit ![0, 6, 7] S256x1x57.size inb_S256x64x64_S256x1x57_0_6_7, k0_pay11 (k0_pay2 x0 x1 x2 x3 x4)⟩,
    ⟨Rect.unit ![0, 5, 6] S256x1x58.size inb_S256x64x64_S256x1x58_0_5_6, k0_pay10 (k0_pay2 x0 x1 x2 x3 x4)⟩,
    ⟨Rect.unit ![0, 4, 5] S256x1x59.size inb_S256x64x64_S256x1x59_0_4_5, k0_pay9 (k0_pay2 x0 x1 x2 x3 x4)⟩,
    ⟨Rect.unit ![0, 3, 4] S256x1x60.size inb_S256x64x64_S256x1x60_0_3_4, k0_pay8 (k0_pay7 x0 x1 x2 x3 x4)⟩,
    ⟨Rect.unit ![0, 2, 3] S256x1x61.size inb_S256x64x64_S256x1x61_0_2_3, k0_pay6 x0 x1 x2 x3 x4⟩,
    ⟨Rect.unit ![0, 1, 2] S256x1x62.size inb_S256x64x64_S256x1x62_0_1_2, k0_pay5 x0 x1 x2 x3 x4⟩,
    ⟨Rect.unit ![0, 0, 1] S256x1x63.size inb_S256x64x64_S256x1x63_0_0_1, k0_pay4 x0 x1 x2 x3 x4⟩,
    ⟨Rect.unit ![0, 0, 0] S256x64x64.size inb_S256x64x64_S256x64x64_0_0_0, k0_pay3⟩ ]

/-- The three zero offsets of the fill. -/
theorem zero3 : (![0, 0, 0] : Fin 3 → Nat) = fun _ => 0 := by
  funext a; match a with | ⟨0, _⟩ => rfl | ⟨1, _⟩ => rfl | ⟨2, _⟩ => rfl

/-- The block after all the stores: the parameter block's entry (b, tri i j) above the diagonal, the zero word elsewhere. -/
theorem canon_segs (x0 : Vec F S256x64 .f32) (x1 : Vec F S64x128 .bf16) (x2 : Vec F S1x128 .f32) (x3 : Vec F S128x2016 .bf16)
    (x4 : Vec F S1x2016 .f32) :
    View.canon (segs x0 x1 x2 x3 x4)
      = Cert.Skew.fillBelow (Val := Elt F) (e := .f32) (Scalar.ofBits .f32 0x00000000#32) (k0_pay2 x0 x1 x2 x3 x4) 63 := by
  have h0 := Cert.Skew.canon_fill_base (Val := Elt F) (e := .f32) (Scalar.ofBits .f32 0x00000000#32) (k0_pay2 x0 x1 x2 x3 x4)
    (off := ![0, 0, 0]) zero3 inb_S256x64x64_S256x64x64_0_0_0 (k0_pay3 (F := F)) (fun _ => rfl)
  have h1 := Cert.Skew.canon_fill_step (Val := Elt F) (e := .f32) (Scalar.ofBits .f32 0x00000000#32) (k0_pay2 x0 x1 x2 x3 x4) 0 63 0 rfl rfl
    inb_S256x64x64_S256x1x63_0_0_1 (k0_pay4 x0 x1 x2 x3 x4)
    (fun b u q h => Cert.Skew.seg_apply 63 0 (k0_pay2 x0 x1 x2 x3 x4) (by decide) (by decide) b u q h) _ h0
  have h2 := Cert.Skew.canon_fill_step (Val := Elt F) (e := .f32) (Scalar.ofBits .f32 0x00000000#32) (k0_pay2 x0 x1 x2 x3 x4) 1 62 63 rfl rfl
    inb_S256x64x64_S256x1x62_0_1_2 (k0_pay5 x0 x1 x2 x3 x4)
    (fun b u q h => Cert.Skew.seg_apply 62 63 (k0_pay2 x0 x1 x2 x3 x4) (by decide) (by decide) b u q h) _ h1
  have h3 := Cert.Skew.canon_fill_step (Val := Elt F) (e := .f32) (Scalar.ofBits .f32 0x00000000#32) (k0_pay2 x0 x1 x2 x3 x4) 2 61 125 rfl rfl
    inb_S256x64x64_S256x1x61_0_2_3 (k0_pay6 x0 x1 x2 x3 x4)
    (fun b u q h => Cert.Skew.seg_apply 61 125 (k0_pay2 x0 x1 x2 x3 x4) (by decide) (by decide) b u q h) _ h2
  have h4 := Cert.Skew.canon_fill_step (Val := Elt F) (e := .f32) (Scalar.ofBits .f32 0x00000000#32) (k0_pay2 x0 x1 x2 x3 x4) 3 60 186 rfl rfl
    inb_S256x64x64_S256x1x60_0_3_4 (k0_pay8 (k0_pay7 x0 x1 x2 x3 x4))
    (fun b u q h => Cert.Skew.seg_apply 60 186 (k0_pay2 x0 x1 x2 x3 x4) (by decide) (by decide) b u q h) _ h3
  have h5 := Cert.Skew.canon_fill_step (Val := Elt F) (e := .f32) (Scalar.ofBits .f32 0x00000000#32) (k0_pay2 x0 x1 x2 x3 x4) 4 59 246 rfl rfl
    inb_S256x64x64_S256x1x59_0_4_5 (k0_pay9 (k0_pay2 x0 x1 x2 x3 x4))
    (fun b u q h => Cert.Skew.seg_apply 59 246 (k0_pay2 x0 x1 x2 x3 x4) (by decide) (by decide) b u q h) _ h4
  have h6 := Cert.Skew.canon_fill_step (Val := Elt F) (e := .f32) (Scalar.ofBits .f32 0x00000000#32) (k0_pay2 x0 x1 x2 x3 x4) 5 58 305 rfl rfl
    inb_S256x64x64_S256x1x58_0_5_6 (k0_pay10 (k0_pay2 x0 x1 x2 x3 x4))
    (fun b u q h => Cert.Skew.seg_apply 58 305 (k0_pay2 x0 x1 x2 x3 x4) (by decide) (by decide) b u q h) _ h5
  have h7 := Cert.Skew.canon_fill_step (Val := Elt F) (e := .f32) (Scalar.ofBits .f32 0x00000000#32) (k0_pay2 x0 x1 x2 x3 x4) 6 57 363 rfl rfl
    inb_S256x64x64_S256x1x57_0_6_7 (k0_pay11 (k0_pay2 x0 x1 x2 x3 x4))
    (fun b u q h => Cert.Skew.seg_apply 57 363 (k0_pay2 x0 x1 x2 x3 x4) (by decide) (by decide) b u q h) _ h6
  have h8 := Cert.Skew.canon_fill_step (Val := Elt F) (e := .f32) (Scalar.ofBits .f32 0x00000000#32) (k0_pay2 x0 x1 x2 x3 x4) 7 56 420 rfl rfl
    inb_S256x64x64_S256x1x56_0_7_8 (k0_pay12 (k0_pay2 x0 x1 x2 x3 x4))
    (fun b u q h => Cert.Skew.seg_apply 56 420 (k0_pay2 x0 x1 x2 x3 x4) (by decide) (by decide) b u q h) _ h7
  have h9 := Cert.Skew.canon_fill_step (Val := Elt F) (e := .f32) (Scalar.ofBits .f32 0x00000000#32) (k0_pay2 x0 x1 x2 x3 x4) 8 55 476 rfl rfl
    inb_S256x64x64_S256x1x55_0_8_9 (k0_pay13 (k0_pay2 x0 x1 x2 x3 x4))
    (fun b u q h => Cert.Skew.seg_apply 55 476 (k0_pay2 x0 x1 x2 x3 x4) (by decide) (by decide) b u q h) _ h8
  have h10 := Cert.Skew.canon_fill_step (Val := Elt F) (e := .f32) (Scalar.ofBits .f32 0x00000000#32) (k0_pay2 x0 x1 x2 x3 x4) 9 54 531 rfl rfl
    inb_S256x64x64_S256x1x54_0_9_10 (k0_pay14 (k0_pay2 x0 x1 x2 x3 x4))
    (fun b u q h => Cert.Skew.seg_apply 54 531 (k0_pay2 x0 x1 x2 x3 x4) (by decide) (by decide) b u q h) _ h9
  have h11 := Cert.Skew.canon_fill_step (Val := Elt F) (e := .f32) (Scalar.ofBits .f32 0x00000000#32) (k0_pay2 x0 x1 x2 x3 x4) 10 53 585 rfl rfl
    inb_S256x64x64_S256x1x53_0_10_11 (k0_pay15 (k0_pay2 x0 x1 x2 x3 x4))
    (fun b u q h => Cert.Skew.seg_apply 53 585 (k0_pay2 x0 x1 x2 x3 x4) (by decide) (by decide) b u q h) _ h10
  have h12 := Cert.Skew.canon_fill_step (Val := Elt F) (e := .f32) (Scalar.ofBits .f32 0x00000000#32) (k0_pay2 x0 x1 x2 x3 x4) 11 52 638 rfl rfl
    inb_S256x64x64_S256x1x52_0_11_12 (k0_pay16 (k0_pay2 x0 x1 x2 x3 x4))
    (fun b u q h => Cert.Skew.seg_apply 52 638 (k0_pay2 x0 x1 x2 x3 x4) (by decide) (by decide) b u q h) _ h11
  have h13 := Cert.Skew.canon_fill_step (Val := Elt F) (e := .f32) (Scalar.ofBits .f32 0x00000000#32) (k0_pay2 x0 x1 x2 x3 x4) 12 51 690 rfl rfl
    inb_S256x64x64_S256x1x51_0_12_13 (k0_pay17 (k0_pay2 x0 x1 x2 x3 x4))
    (fun b u q h => Cert.Skew.seg_apply 51 690 (k0_pay2 x0 x1 x2 x3 x4) (by decide) (by decide) b u q h) _ h12
  have h14 := Cert.Skew.canon_fill_step (Val := Elt F) (e := .f32) (Scalar.ofBits .f32 0x00000000#32) (k0_pay2 x0 x1 x2 x3 x4) 13 50 741 rfl rfl
    inb_S256x64x64_S256x1x50_0_13_14 (k0_pay18 (k0_pay2 x0 x1 x2 x3 x4))
    (fun b u q h => Cert.Skew.seg_apply 50 741 (k0_pay2 x0 x1 x2 x3 x4) (by decide) (by decide) b u q h) _ h13
  have h15 := Cert.Skew.canon_fill_step (Val := Elt F) (e := .f32) (Scalar.ofBits .f32 0x00000000#32) (k0_pay2 x0 x1 x2 x3 x4) 14 49 791 rfl rfl
    inb_S256x64x64_S256x1x49_0_14_15 (k0_pay19 (k0_pay2 x0 x1 x2 x3 x4))
    (fun b u q h => Cert.Skew.seg_apply 49 791 (k0_pay2 x0 x1 x2 x3 x4) (by decide) (by decide) b u q h) _ h14
  have h16 := Cert.Skew.canon_fill_step (Val := Elt F) (e := .f32) (Scalar.ofBits .f32 0x00000000#32) (k0_pay2 x0 x1 x2 x3 x4) 15 48 840 rfl rfl
    inb_S256x64x64_S256x1x48_0_15_16 (k0_pay20 (k0_pay2 x0 x1 x2 x3 x4))
    (fun b u q h => Cert.Skew.seg_apply 48 840 (k0_pay2 x0 x1 x2 x3 x4) (by decide) (by decide) b u q h) _ h15
  have h17 := Cert.Skew.canon_fill_step (Val := Elt F) (e := .f32) (Scalar.ofBits .f32 0x00000000#32) (k0_pay2 x0 x1 x2 x3 x4) 16 47 888 rfl rfl
    inb_S256x64x64_S256x1x47_0_16_17 (k0_pay21 (k0_pay2 x0 x1 x2 x3 x4))
    (fun b u q h => Cert.Skew.seg_apply 47 888 (k0_pay2 x0 x1 x2 x3 x4) (by decide) (by decide) b u q h) _ h16
  have h18 := Cert.Skew.canon_fill_step (Val := Elt F) (e := .f32) (Scalar.ofBits .f32 0x00000000#32) (k0_pay2 x0 x1 x2 x3 x4) 17 46 935 rfl rfl
    inb_S256x64x64_S256x1x46_0_17_18 (k0_pay22 (k0_pay2 x0 x1 x2 x3 x4))
    (fun b u q h => Cert.Skew.seg_apply 46 935 (k0_pay2 x0 x1 x2 x3 x4) (by decide) (by decide) b u q h) _ h17
  have h19 := Cert.Skew.canon_fill_step (Val := Elt F) (e := .f32) (Scalar.ofBits .f32 0x00000000#32) (k0_pay2 x0 x1 x2 x3 x4) 18 45 981 rfl rfl
    inb_S256x64x64_S256x1x45_0_18_19 (k0_pay23 (k0_pay2 x0 x1 x2 x3 x4))
    (fun b u q h => Cert.Skew.seg_apply 45 981 (k0_pay2 x0 x1 x2 x3 x4) (by decide) (by decide) b u q h) _ h18
  have h20 := Cert.Skew.canon_fill_step (Val := Elt F) (e := .f32) (Scalar.ofBits .f32 0x00000000#32) (k0_pay2 x0 x1 x2 x3 x4) 19 44 1026 rfl rfl
    inb_S256x64x64_S256x1x44_0_19_20 (k0_pay24 (k0_pay2 x0 x1 x2 x3 x4))
    (fun b u q h => Cert.Skew.seg_apply 44 1026 (k0_pay2 x0 x1 x2 x3 x4) (by decide) (by decide) b u q h) _ h19
  have h21 := Cert.Skew.canon_fill_step (Val := Elt F) (e := .f32) (Scalar.ofBits .f32 0x00000000#32) (k0_pay2 x0 x1 x2 x3 x4) 20 43 1070 rfl rfl
    inb_S256x64x64_S256x1x43_0_20_21 (k0_pay25 (k0_pay2 x0 x1 x2 x3 x4))
    (fun b u q h => Cert.Skew.seg_apply 43 1070 (k0_pay2 x0 x1 x2 x3 x4) (by decide) (by decide) b u q h) _ h20
  have h22 := Cert.Skew.canon_fill_step (Val := Elt F) (e := .f32) (Scalar.ofBits .f32 0x00000000#32) (k0_pay2 x0 x1 x2 x3 x4) 21 42 1113 rfl rfl
    inb_S256x64x64_S256x1x42_0_21_22 (k0_pay26 (k0_pay2 x0 x1 x2 x3 x4))
    (fun b u q h => Cert.Skew.seg_apply 42 1113 (k0_pay2 x0 x1 x2 x3 x4) (by decide) (by decide) b u q h) _ h21
  have h23 := Cert.Skew.canon_fill_step (Val := Elt F) (e := .f32) (Scalar.ofBits .f32 0x00000000#32) (k0_pay2 x0 x1 x2 x3 x4) 22 41 1155 rfl rfl
    inb_S256x64x64_S256x1x41_0_22_23 (k0_pay27 (k0_pay2 x0 x1 x2 x3 x4))
    (fun b u q h => Cert.Skew.seg_apply 41 1155 (k0_pay2 x0 x1 x2 x3 x4) (by decide) (by decide) b u q h) _ h22
  have h24 := Cert.Skew.canon_fill_step (Val := Elt F) (e := .f32) (Scalar.ofBits .f32 0x00000000#32) (k0_pay2 x0 x1 x2 x3 x4) 23 40 1196 rfl rfl
    inb_S256x64x64_S256x1x40_0_23_24 (k0_pay28 (k0_pay2 x0 x1 x2 x3 x4))
    (fun b u q h => Cert.Skew.seg_apply 40 1196 (k0_pay2 x0 x1 x2 x3 x4) (by decide) (by decide) b u q h) _ h23
  have h25 := Cert.Skew.canon_fill_step (Val := Elt F) (e := .f32) (Scalar.ofBits .f32 0x00000000#32) (k0_pay2 x0 x1 x2 x3 x4) 24 39 1236 rfl rfl
    inb_S256x64x64_S256x1x39_0_24_25 (k0_pay29 (k0_pay2 x0 x1 x2 x3 x4))
    (fun b u q h => Cert.Skew.seg_apply 39 1236 (k0_pay2 x0 x1 x2 x3 x4) (by decide) (by decide) b u q h) _ h24
  have h26 := Cert.Skew.canon_fill_step (Val := Elt F) (e := .f32) (Scalar.ofBits .f32 0x00000000#32) (k0_pay2 x0 x1 x2 x3 x4) 25 38 1275 rfl rfl
    inb_S256x64x64_S256x1x38_0_25_26 (k0_pay30 (k0_pay2 x0 x1 x2 x3 x4))
    (fun b u q h => Cert.Skew.seg_apply 38 1275 (k0_pay2 x0 x1 x2 x3 x4) (by decide) (by decide) b u q h) _ h25
  have h27 := Cert.Skew.canon_fill_step (Val := Elt F) (e := .f32) (Scalar.ofBits .f32 0x00000000#32) (k0_pay2 x0 x1 x2 x3 x4) 26 37 1313 rfl rfl
    inb_S256x64x64_S256x1x37_0_26_27 (k0_pay31 (k0_pay2 x0 x1 x2 x3 x4))
    (fun b u q h => Cert.Skew.seg_apply 37 1313 (k0_pay2 x0 x1 x2 x3 x4) (by decide) (by decide) b u q h) _ h26
  have h28 := Cert.Skew.canon_fill_step (Val := Elt F) (e := .f32) (Scalar.ofBits .f32 0x00000000#32) (k0_pay2 x0 x1 x2 x3 x4) 27 36 1350 rfl rfl
    inb_S256x64x64_S256x1x36_0_27_28 (k0_pay32 (k0_pay2 x0 x1 x2 x3 x4))
    (fun b u q h => Cert.Skew.seg_apply 36 1350 (k0_pay2 x0 x1 x2 x3 x4) (by decide) (by decide) b u q h) _ h27
  have h29 := Cert.Skew.canon_fill_step (Val := Elt F) (e := .f32) (Scalar.ofBits .f32 0x00000000#32) (k0_pay2 x0 x1 x2 x3 x4) 28 35 1386 rfl rfl
    inb_S256x64x64_S256x1x35_0_28_29 (k0_pay33 (k0_pay2 x0 x1 x2 x3 x4))
    (fun b u q h => Cert.Skew.seg_apply 35 1386 (k0_pay2 x0 x1 x2 x3 x4) (by decide) (by decide) b u q h) _ h28
  have h30 := Cert.Skew.canon_fill_step (Val := Elt F) (e := .f32) (Scalar.ofBits .f32 0x00000000#32) (k0_pay2 x0 x1 x2 x3 x4) 29 34 1421 rfl rfl
    inb_S256x64x64_S256x1x34_0_29_30 (k0_pay34 (k0_pay2 x0 x1 x2 x3 x4))
    (fun b u q h => Cert.Skew.seg_apply 34 1421 (k0_pay2 x0 x1 x2 x3 x4) (by decide) (by decide) b u q h) _ h29
  have h31 := Cert.Skew.canon_fill_step (Val := Elt F) (e := .f32) (Scalar.ofBits .f32 0x00000000#32) (k0_pay2 x0 x1 x2 x3 x4) 30 33 1455 rfl rfl
    inb_S256x64x64_S256x1x33_0_30_31 (k0_pay35 (k0_pay2 x0 x1 x2 x3 x4))
    (fun b u q h => Cert.Skew.seg_apply 33 1455 (k0_pay2 x0 x1 x2 x3 x4) (by decide) (by decide) b u q h) _ h30
  have h32 := Cert.Skew.canon_fill_step (Val := Elt F) (e := .f32) (Scalar.ofBits .f32 0x00000000#32) (k0_pay2 x0 x1 x2 x3 x4) 31 32 1488 rfl rfl
    inb_S256x64x64_S256x1x32_0_31_32 (k0_pay36 (k0_pay2 x0 x1 x2 x3 x4))
    (fun b u q h => Cert.Skew.seg_apply 32 1488 (k0_pay2 x0 x1 x2 x3 x4) (by decide) (by decide) b u q h) _ h31
  have h33 := Cert.Skew.canon_fill_step (Val := Elt F) (e := .f32) (Scalar.ofBits .f32 0x00000000#32) (k0_pay2 x0 x1 x2 x3 x4) 32 31 1520 rfl rfl
    inb_S256x64x64_S256x1x31_0_32_33 (k0_pay37 (k0_pay2 x0 x1 x2 x3 x4))
    (fun b u q h => Cert.Skew.seg_apply 31 1520 (k0_pay2 x0 x1 x2 x3 x4) (by decide) (by decide) b u q h) _ h32
  have h34 := Cert.Skew.canon_fill_step (Val := Elt F) (e := .f32) (Scalar.ofBits .f32 0x00000000#32) (k0_pay2 x0 x1 x2 x3 x4) 33 30 1551 rfl rfl
    inb_S256x64x64_S256x1x30_0_33_34 (k0_pay38 (k0_pay2 x0 x1 x2 x3 x4))
    (fun b u q h => Cert.Skew.seg_apply 30 1551 (k0_pay2 x0 x1 x2 x3 x4) (by decide) (by decide) b u q h) _ h33
  have h35 := Cert.Skew.canon_fill_step (Val := Elt F) (e := .f32) (Scalar.ofBits .f32 0x00000000#32) (k0_pay2 x0 x1 x2 x3 x4) 34 29 1581 rfl rfl
    inb_S256x64x64_S256x1x29_0_34_35 (k0_pay39 (k0_pay2 x0 x1 x2 x3 x4))
    (fun b u q h => Cert.Skew.seg_apply 29 1581 (k0_pay2 x0 x1 x2 x3 x4) (by decide) (by decide) b u q h) _ h34
  have h36 := Cert.Skew.canon_fill_step (Val := Elt F) (e := .f32) (Scalar.ofBits .f32 0x00000000#32) (k0_pay2 x0 x1 x2 x3 x4) 35 28 1610 rfl rfl
    inb_S256x64x64_S256x1x28_0_35_36 (k0_pay40 (k0_pay2 x0 x1 x2 x3 x4))
    (fun b u q h => Cert.Skew.seg_apply 28 1610 (k0_pay2 x0 x1 x2 x3 x4) (by decide) (by decide) b u q h) _ h35
  have h37 := Cert.Skew.canon_fill_step (Val := Elt F) (e := .f32) (Scalar.ofBits .f32 0x00000000#32) (k0_pay2 x0 x1 x2 x3 x4) 36 27 1638 rfl rfl
    inb_S256x64x64_S256x1x27_0_36_37 (k0_pay41 (k0_pay2 x0 x1 x2 x3 x4))
    (fun b u q h => Cert.Skew.seg_apply 27 1638 (k0_pay2 x0 x1 x2 x3 x4) (by decide) (by decide) b u q h) _ h36
  have h38 := Cert.Skew.canon_fill_step (Val := Elt F) (e := .f32) (Scalar.ofBits .f32 0x00000000#32) (k0_pay2 x0 x1 x2 x3 x4) 37 26 1665 rfl rfl
    inb_S256x64x64_S256x1x26_0_37_38 (k0_pay42 (k0_pay2 x0 x1 x2 x3 x4))
    (fun b u q h => Cert.Skew.seg_apply 26 1665 (k0_pay2 x0 x1 x2 x3 x4) (by decide) (by decide) b u q h) _ h37
  have h39 := Cert.Skew.canon_fill_step (Val := Elt F) (e := .f32) (Scalar.ofBits .f32 0x00000000#32) (k0_pay2 x0 x1 x2 x3 x4) 38 25 1691 rfl rfl
    inb_S256x64x64_S256x1x25_0_38_39 (k0_pay43 (k0_pay2 x0 x1 x2 x3 x4))
    (fun b u q h => Cert.Skew.seg_apply 25 1691 (k0_pay2 x0 x1 x2 x3 x4) (by decide) (by decide) b u q h) _ h38
  have h40 := Cert.Skew.canon_fill_step (Val := Elt F) (e := .f32) (Scalar.ofBits .f32 0x00000000#32) (k0_pay2 x0 x1 x2 x3 x4) 39 24 1716 rfl rfl
    inb_S256x64x64_S256x1x24_0_39_40 (k0_pay44 (k0_pay2 x0 x1 x2 x3 x4))
    (fun b u q h => Cert.Skew.seg_apply 24 1716 (k0_pay2 x0 x1 x2 x3 x4) (by decide) (by decide) b u q h) _ h39
  have h41 := Cert.Skew.canon_fill_step (Val := Elt F) (e := .f32) (Scalar.ofBits .f32 0x00000000#32) (k0_pay2 x0 x1 x2 x3 x4) 40 23 1740 rfl rfl
    inb_S256x64x64_S256x1x23_0_40_41 (k0_pay45 (k0_pay2 x0 x1 x2 x3 x4))
    (fun b u q h => Cert.Skew.seg_apply 23 1740 (k0_pay2 x0 x1 x2 x3 x4) (by decide) (by decide) b u q h) _ h40
  have h42 := Cert.Skew.canon_fill_step (Val := Elt F) (e := .f32) (Scalar.ofBits .f32 0x00000000#32) (k0_pay2 x0 x1 x2 x3 x4) 41 22 1763 rfl rfl
    inb_S256x64x64_S256x1x22_0_41_42 (k0_pay46 (k0_pay2 x0 x1 x2 x3 x4))
    (fun b u q h => Cert.Skew.seg_apply 22 1763 (k0_pay2 x0 x1 x2 x3 x4) (by decide) (by decide) b u q h) _ h41
  have h43 := Cert.Skew.canon_fill_step (Val := Elt F) (e := .f32) (Scalar.ofBits .f32 0x00000000#32) (k0_pay2 x0 x1 x2 x3 x4) 42 21 1785 rfl rfl
    inb_S256x64x64_S256x1x21_0_42_43 (k0_pay47 (k0_pay2 x0 x1 x2 x3 x4))
    (fun b u q h => Cert.Skew.seg_apply 21 1785 (k0_pay2 x0 x1 x2 x3 x4) (by decide) (by decide) b u q h) _ h42
  have h44 := Cert.Skew.canon_fill_step (Val := Elt F) (e := .f32) (Scalar.ofBits .f32 0x00000000#32) (k0_pay2 x0 x1 x2 x3 x4) 43 20 1806 rfl rfl
    inb_S256x64x64_S256x1x20_0_43_44 (k0_pay48 (k0_pay2 x0 x1 x2 x3 x4))
    (fun b u q h => Cert.Skew.seg_apply 20 1806 (k0_pay2 x0 x1 x2 x3 x4) (by decide) (by decide) b u q h) _ h43
  have h45 := Cert.Skew.canon_fill_step (Val := Elt F) (e := .f32) (Scalar.ofBits .f32 0x00000000#32) (k0_pay2 x0 x1 x2 x3 x4) 44 19 1826 rfl rfl
    inb_S256x64x64_S256x1x19_0_44_45 (k0_pay49 (k0_pay2 x0 x1 x2 x3 x4))
    (fun b u q h => Cert.Skew.seg_apply 19 1826 (k0_pay2 x0 x1 x2 x3 x4) (by decide) (by decide) b u q h) _ h44
  have h46 := Cert.Skew.canon_fill_step (Val := Elt F) (e := .f32) (Scalar.ofBits .f32 0x00000000#32) (k0_pay2 x0 x1 x2 x3 x4) 45 18 1845 rfl rfl
    inb_S256x64x64_S256x1x18_0_45_46 (k0_pay50 (k0_pay2 x0 x1 x2 x3 x4))
    (fun b u q h => Cert.Skew.seg_apply 18 1845 (k0_pay2 x0 x1 x2 x3 x4) (by decide) (by decide) b u q h) _ h45
  have h47 := Cert.Skew.canon_fill_step (Val := Elt F) (e := .f32) (Scalar.ofBits .f32 0x00000000#32) (k0_pay2 x0 x1 x2 x3 x4) 46 17 1863 rfl rfl
    inb_S256x64x64_S256x1x17_0_46_47 (k0_pay51 (k0_pay2 x0 x1 x2 x3 x4))
    (fun b u q h => Cert.Skew.seg_apply 17 1863 (k0_pay2 x0 x1 x2 x3 x4) (by decide) (by decide) b u q h) _ h46
  have h48 := Cert.Skew.canon_fill_step (Val := Elt F) (e := .f32) (Scalar.ofBits .f32 0x00000000#32) (k0_pay2 x0 x1 x2 x3 x4) 47 16 1880 rfl rfl
    inb_S256x64x64_S256x1x16_0_47_48 (k0_pay52 (k0_pay2 x0 x1 x2 x3 x4))
    (fun b u q h => Cert.Skew.seg_apply 16 1880 (k0_pay2 x0 x1 x2 x3 x4) (by decide) (by decide) b u q h) _ h47
  have h49 := Cert.Skew.canon_fill_step (Val := Elt F) (e := .f32) (Scalar.ofBits .f32 0x00000000#32) (k0_pay2 x0 x1 x2 x3 x4) 48 15 1896 rfl rfl
    inb_S256x64x64_S256x1x15_0_48_49 (k0_pay53 (k0_pay2 x0 x1 x2 x3 x4))
    (fun b u q h => Cert.Skew.seg_apply 15 1896 (k0_pay2 x0 x1 x2 x3 x4) (by decide) (by decide) b u q h) _ h48
  have h50 := Cert.Skew.canon_fill_step (Val := Elt F) (e := .f32) (Scalar.ofBits .f32 0x00000000#32) (k0_pay2 x0 x1 x2 x3 x4) 49 14 1911 rfl rfl
    inb_S256x64x64_S256x1x14_0_49_50 (k0_pay54 (k0_pay2 x0 x1 x2 x3 x4))
    (fun b u q h => Cert.Skew.seg_apply 14 1911 (k0_pay2 x0 x1 x2 x3 x4) (by decide) (by decide) b u q h) _ h49
  have h51 := Cert.Skew.canon_fill_step (Val := Elt F) (e := .f32) (Scalar.ofBits .f32 0x00000000#32) (k0_pay2 x0 x1 x2 x3 x4) 50 13 1925 rfl rfl
    inb_S256x64x64_S256x1x13_0_50_51 (k0_pay55 (k0_pay2 x0 x1 x2 x3 x4))
    (fun b u q h => Cert.Skew.seg_apply 13 1925 (k0_pay2 x0 x1 x2 x3 x4) (by decide) (by decide) b u q h) _ h50
  have h52 := Cert.Skew.canon_fill_step (Val := Elt F) (e := .f32) (Scalar.ofBits .f32 0x00000000#32) (k0_pay2 x0 x1 x2 x3 x4) 51 12 1938 rfl rfl
    inb_S256x64x64_S256x1x12_0_51_52 (k0_pay56 (k0_pay2 x0 x1 x2 x3 x4))
    (fun b u q h => Cert.Skew.seg_apply 12 1938 (k0_pay2 x0 x1 x2 x3 x4) (by decide) (by decide) b u q h) _ h51
  have h53 := Cert.Skew.canon_fill_step (Val := Elt F) (e := .f32) (Scalar.ofBits .f32 0x00000000#32) (k0_pay2 x0 x1 x2 x3 x4) 52 11 1950 rfl rfl
    inb_S256x64x64_S256x1x11_0_52_53 (k0_pay57 (k0_pay2 x0 x1 x2 x3 x4))
    (fun b u q h => Cert.Skew.seg_apply 11 1950 (k0_pay2 x0 x1 x2 x3 x4) (by decide) (by decide) b u q h) _ h52
  have h54 := Cert.Skew.canon_fill_step (Val := Elt F) (e := .f32) (Scalar.ofBits .f32 0x00000000#32) (k0_pay2 x0 x1 x2 x3 x4) 53 10 1961 rfl rfl
    inb_S256x64x64_S256x1x10_0_53_54 (k0_pay58 (k0_pay2 x0 x1 x2 x3 x4))
    (fun b u q h => Cert.Skew.seg_apply 10 1961 (k0_pay2 x0 x1 x2 x3 x4) (by decide) (by decide) b u q h) _ h53
  have h55 := Cert.Skew.canon_fill_step (Val := Elt F) (e := .f32) (Scalar.ofBits .f32 0x00000000#32) (k0_pay2 x0 x1 x2 x3 x4) 54 9 1971 rfl rfl
    inb_S256x64x64_S256x1x9_0_54_55 (k0_pay59 (k0_pay2 x0 x1 x2 x3 x4))
    (fun b u q h => Cert.Skew.seg_apply 9 1971 (k0_pay2 x0 x1 x2 x3 x4) (by decide) (by decide) b u q h) _ h54
  have h56 := Cert.Skew.canon_fill_step (Val := Elt F) (e := .f32) (Scalar.ofBits .f32 0x00000000#32) (k0_pay2 x0 x1 x2 x3 x4) 55 8 1980 rfl rfl
    inb_S256x64x64_S256x1x8_0_55_56 (k0_pay60 (k0_pay2 x0 x1 x2 x3 x4))
    (fun b u q h => Cert.Skew.seg_apply 8 1980 (k0_pay2 x0 x1 x2 x3 x4) (by decide) (by decide) b u q h) _ h55
  have h57 := Cert.Skew.canon_fill_step (Val := Elt F) (e := .f32) (Scalar.ofBits .f32 0x00000000#32) (k0_pay2 x0 x1 x2 x3 x4) 56 7 1988 rfl rfl
    inb_S256x64x64_S256x1x7_0_56_57 (k0_pay61 (k0_pay2 x0 x1 x2 x3 x4))
    (fun b u q h => Cert.Skew.seg_apply 7 1988 (k0_pay2 x0 x1 x2 x3 x4) (by decide) (by decide) b u q h) _ h56
  have h58 := Cert.Skew.canon_fill_step (Val := Elt F) (e := .f32) (Scalar.ofBits .f32 0x00000000#32) (k0_pay2 x0 x1 x2 x3 x4) 57 6 1995 rfl rfl
    inb_S256x64x64_S256x1x6_0_57_58 (k0_pay62 (k0_pay2 x0 x1 x2 x3 x4))
    (fun b u q h => Cert.Skew.seg_apply 6 1995 (k0_pay2 x0 x1 x2 x3 x4) (by decide) (by decide) b u q h) _ h57
  have h59 := Cert.Skew.canon_fill_step (Val := Elt F) (e := .f32) (Scalar.ofBits .f32 0x00000000#32) (k0_pay2 x0 x1 x2 x3 x4) 58 5 2001 rfl rfl
    inb_S256x64x64_S256x1x5_0_58_59 (k0_pay63 (k0_pay2 x0 x1 x2 x3 x4))
    (fun b u q h => Cert.Skew.seg_apply 5 2001 (k0_pay2 x0 x1 x2 x3 x4) (by decide) (by decide) b u q h) _ h58
  have h60 := Cert.Skew.canon_fill_step (Val := Elt F) (e := .f32) (Scalar.ofBits .f32 0x00000000#32) (k0_pay2 x0 x1 x2 x3 x4) 59 4 2006 rfl rfl
    inb_S256x64x64_S256x1x4_0_59_60 (k0_pay64 (k0_pay2 x0 x1 x2 x3 x4))
    (fun b u q h => Cert.Skew.seg_apply 4 2006 (k0_pay2 x0 x1 x2 x3 x4) (by decide) (by decide) b u q h) _ h59
  have h61 := Cert.Skew.canon_fill_step (Val := Elt F) (e := .f32) (Scalar.ofBits .f32 0x00000000#32) (k0_pay2 x0 x1 x2 x3 x4) 60 3 2010 rfl rfl
    inb_S256x64x64_S256x1x3_0_60_61 (k0_pay65 (k0_pay2 x0 x1 x2 x3 x4))
    (fun b u q h => Cert.Skew.seg_apply 3 2010 (k0_pay2 x0 x1 x2 x3 x4) (by decide) (by decide) b u q h) _ h60
  have h62 := Cert.Skew.canon_fill_step (Val := Elt F) (e := .f32) (Scalar.ofBits .f32 0x00000000#32) (k0_pay2 x0 x1 x2 x3 x4) 61 2 2013 rfl rfl
    inb_S256x64x64_S256x1x2_0_61_62 (k0_pay66 (k0_pay2 x0 x1 x2 x3 x4))
    (fun b u q h => Cert.Skew.seg_apply 2 2013 (k0_pay2 x0 x1 x2 x3 x4) (by decide) (by decide) b u q h) _ h61
  have h63 := Cert.Skew.canon_fill_step (Val := Elt F) (e := .f32) (Scalar.ofBits .f32 0x00000000#32) (k0_pay2 x0 x1 x2 x3 x4) 62 1 2015 rfl rfl
    inb_S256x64x64_S256x1x1_0_62_63 (k0_pay67 (k0_pay2 x0 x1 x2 x3 x4))
    (fun b u q h => Cert.Skew.seg_apply 1 2015 (k0_pay2 x0 x1 x2 x3 x4) (by decide) (by decide) b u q h) _ h62
  exact h63

end Cert.KernelIdeal.Body

end
-- ==== Proof.KBody.lean ====
/-
  What the body leaves in its output block, as one function of its five input blocks.

  The body's last store covers the whole block, so the block ends at that store's value: the block as it was loaded
  just before — the zero fill overwritten above the diagonal by the 63 row pieces, read back as one function
  (the table of stores) — minus its transpose in the two matrix axes.
-/
import proofs.«117296_j54039278518768_2_alg».proof.Proof.Gen.KernelIdeal.Frame
import proofs.«117296_j54039278518768_2_alg».proof.Proof.KSegs
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

theorem zero2 : (![0, 0] : Fin 2 → Nat) = fun _ => 0 := by
  funext a; match a with | ⟨0, _⟩ => rfl | ⟨1, _⟩ => rfl

/-- The output block after the body: the last store's value over the block read back from the earlier stores. -/
theorem out_eq (c : Dev nD) (i : grid0.Coords) (arg1 : Memref sig .tc .vmem S256x64 .f32) (harg1 : arg1.IsWhole)
    (arg2 : Memref sig .tc .vmem S64x128 .bf16) (harg2 : arg2.IsWhole) (arg3 : Memref sig .tc .vmem S1x128 .f32) (harg3 : arg3.IsWhole)
    (arg4 : Memref sig .tc .vmem S128x2016 .bf16) (harg4 : arg4.IsWhole) (arg5 : Memref sig .tc .vmem S1x2016 .f32) (harg5 : arg5.IsWhole)
    (arg6 : Memref sig .tc .vmem S256x64x64 .f32) (harg6 : arg6.IsWhole)
    (x0 : Vec F S256x64 .f32) (x1 : Vec F S64x128 .bf16) (x2 : Vec F S1x128 .f32) (x3 : Vec F S128x2016 .bf16) (x4 : Vec F S1x2016 .f32) :
    out0_A_5 c i arg1 harg1 arg2 harg2 arg3 harg3 arg4 harg4 arg5 harg5 arg6 harg6 x0 x1 x2 x3 x4
      = k0_pay1 (Cert.Skew.fillBelow (Val := Elt F) (e := .f32) (Scalar.ofBits .f32 0x00000000#32) (k0_pay2 x0 x1 x2 x3 x4) 63) := by
  unfold out0_A_5
  rw [View.read_writes_junk_eq_canon]
  unfold kernelRun0_A
  dsimp only
  rw [View.canon_cons_unit_zero zero3]
  refine congrArg k0_pay1 ?_
  unfold kernelRun0_A.sl.v209
  rw [View.readCov_eq_canon']
  show View.ld (View.canon _) (Rect.unit ![0, 0, 0] S256x64x64.size inb_S256x64x64_S256x64x64_0_0_0) = _
  rw [View.ld_unit_zero zero3]
  unfold kernelRun0_A.sl.H5_64
  sl_unfold_run_names
  simp only [View.readAt_eq_ld, harg1.read_unread, harg2.read_unread, harg3.read_unread, harg4.read_unread, harg5.read_unread,
    View.ld_unit_zero (S := S256x64) zero2, View.ld_unit_zero (S := S64x128) zero2, View.ld_unit_zero (S := S1x128) zero2,
    View.ld_unit_zero (S := S128x2016) zero2, View.ld_unit_zero (S := S1x2016) zero2]
  exact canon_segs x0 x1 x2 x3 x4

end Cert.KernelIdeal.Body

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.KPay.lean ====
/-
  The body's arithmetic at an index, over the extended reals.

  The parameter block of a batch tile: entry (b, k) is the sum over the 128 hidden units h of
  tanh (Σ_d x(b, d) · w1(d, h) + c1(0, h)) · w2(h, k), plus c2(0, k). The two matrix products accumulate into zero, so each
  is the plain sum over its contracted axis; the two changes of float format are the identity on the extended reals.
  The last store's value at (b, i, j) is the loaded block's entry (b, i, j) minus its entry (b, j, i).
-/
import proofs.«117296_j54039278518768_2_alg».proof.Proof.Gen.KernelIdeal.Skeleton
import proofs.«117296_j54039278518768_2_alg».proof.Proof.LibDotSum
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-- The hidden layer of the tile at (b, h). -/
theorem hidden_apply (x0 : FVec Ideal S256x64 .f32) (x1 : FVec Ideal S64x128 .bf16) (x2 : FVec Ideal S1x128 .f32)
    (b : Fin 256) (h : Fin 128) :
    truncf (F := Ideal) FTy.bf16
        (tanh (addf
          (matmul dot_S256x64_S64x128_S256x128_1_0_0_1_n_n none (truncf FTy.bf16 x0 bitsLt_bf16_f32) x1
            (constant S256x128 FTy.f32 0x00000000#32))
          (broadcastTo S256x128 x2 broadcasts_S1x128_S256x128)))
        bitsLt_bf16_f32 (ix2 b h)
      = Ideal.tanh ((∑ d : Fin 64, x0 (ix2 b d) * x1 (ix2 d h)) + x2 (ix2 (0 : Fin 1) h)) := by
  show Ideal.tanh (FloatOps.matmul (F := Ideal) dot_S256x64_S64x128_S256x128_1_0_0_1_n_n none (truncf FTy.bf16 x0 bitsLt_bf16_f32) x1
      (constant S256x128 FTy.f32 0x00000000#32) (ix2 b h) + broadcastTo S256x128 x2 broadcasts_S1x128_S256x128 (ix2 b h)) = _
  rw [Ideal.matmul_constant_zero_apply,
    broadcastTo_apply x2 broadcasts_S1x128_S256x128 (ix2 b h) (ix2 (0 : Fin 1) h) (fun a => by
      match a with
      | ⟨0, _⟩ => rfl
      | ⟨1, _⟩ => rfl),
    Cert.LibDotSum.sum_dot dot_S256x64_S64x128_S256x128_1_0_0_1_n_n rfl rfl (fun _ _ => rfl) (fun _ _ => rfl)
      (fun _ _ => rfl) (fun _ _ => rfl) (truncf (F := Ideal) FTy.bf16 x0 bitsLt_bf16_f32) x1 b h]
  rfl

/-- The parameter block of the tile at (b, k). -/
theorem params_apply (x0 : Vec Ideal S256x64 .f32) (x1 : Vec Ideal S64x128 .bf16) (x2 : Vec Ideal S1x128 .f32)
    (x3 : Vec Ideal S128x2016 .bf16) (x4 : Vec Ideal S1x2016 .f32) (b : Fin 256) (k : Fin 2016) :
    k0_pay2 (F := Ideal) x0 x1 x2 x3 x4 (ix2 b k)
      = (∑ h : Fin 128, Ideal.tanh ((∑ d : Fin 64, x0 (ix2 b d) * x1 (ix2 d h)) + x2 (ix2 (0 : Fin 1) h)) * x3 (ix2 h k))
        + x4 (ix2 (0 : Fin 1) k) := by
  unfold k0_pay2
  rw [shapeCast_self, shapeCast_self, shapeCast_self, shapeCast_self]
  show FloatOps.matmul (F := Ideal) dot_S256x128_S128x2016_S256x2016_1_0_0_1_n_n none _ x3 (constant S256x2016 FTy.f32 0x00000000#32) (ix2 b k)
      + broadcastTo S256x2016 x4 broadcasts_S1x2016_S256x2016 (ix2 b k) = _
  rw [Ideal.matmul_constant_zero_apply,
    broadcastTo_apply x4 broadcasts_S1x2016_S256x2016 (ix2 b k) (ix2 (0 : Fin 1) k) (fun a => by
      match a with
      | ⟨0, _⟩ => rfl
      | ⟨1, _⟩ => rfl),
    Cert.LibDotSum.sum_dot dot_S256x128_S128x2016_S256x2016_1_0_0_1_n_n rfl rfl (fun _ _ => rfl) (fun _ _ => rfl)
      (fun _ _ => rfl) (fun _ _ => rfl) _ x3 b k]
  refine congrArg (· + x4 (ix2 (0 : Fin 1) k)) (Finset.sum_congr rfl fun h _ => ?_)
  rw [hidden_apply]

/-- The last store's value: the loaded block minus its transpose in the two matrix axes. -/
theorem skew_apply (u : Vec Ideal S256x64x64 .f32) (b : Fin 256) (i j : Fin 64) :
    k0_pay1 (F := Ideal) u (ix3 b i j) = u (ix3 b i j) - u (ix3 b j i) := by
  unfold k0_pay1
  rw [shapeCast_self]
  show u (ix3 b i j) - transpose S256x64x64 [0, 2, 1] u transposes_S256x64x64_p0_2_1_S256x64x64 (ix3 b i j) = _
  rw [transpose_apply [0, 2, 1] u transposes_S256x64x64_p0_2_1_S256x64x64 (ix3 b i j) (ix3 b j i) (fun a => by
    match a with
    | ⟨0, _⟩ => rfl
    | ⟨1, _⟩ => rfl
    | ⟨2, _⟩ => rfl)]

end Cert.KernelIdeal.Body

end
-- ==== Proof.KBlocks.lean ====
/-
  From the blocks to the whole result array of the kernel.

  Grid point t handles the batch rows 256 t … 256 t + 255: its x block is those rows, its output block the matrices of
  those rows; the four other operands are whole arrays at every point, prepared once before the launch: the two weight
  matrices transposed (the change of float format is the identity on the extended reals), the two biases as one row.
  So the body's parameter block at (b, k) is the specification's parameter vector of batch row 256 t + b at k, the block the
  point writes back is the block of the specification's array, and the 64 blocks tile the array.
-/
import proofs.«117296_j54039278518768_2_alg».proof.Proof.Gen.KernelIdeal.Value
import proofs.«117296_j54039278518768_2_alg».proof.Proof.KBody
import proofs.«117296_j54039278518768_2_alg».proof.Proof.KPay
import Idealize.ShloMosaic.Lib.Pipeline.Value
import Idealize.ShloMosaic.Lib.StableHlo.Run
import Idealize.ShloMosaic.PureOps.Ideal
import Idealize.ShloMosaic.Lib.ValueIdx

set_option maxRecDepth 16384

noncomputable section

namespace Cert.Skew

open Idealize.ShloMosaic Idealize.ShloMosaic.ValueIdx

/-- The block read back above the diagonal from a parameter block that is the specification's parameter vector of
    batch row r, over the zero word, is the specification's upper-triangular matrix of row r. -/
theorem fill_upper (X : (⟨2, ![16384, 64]⟩ : Shape).Idx → EReal) (W1 : (⟨2, ![128, 64]⟩ : Shape).Idx → EReal)
    (b1 : (⟨1, ![128]⟩ : Shape).Idx → EReal) (W2 : (⟨2, ![2016, 128]⟩ : Shape).Idx → EReal)
    (b2 : (⟨1, ![2016]⟩ : Shape).Idx → EReal) (P : (⟨2, ![256, 2016]⟩ : Shape).Idx → EReal) (r : Fin 16384) (b : Fin 256)
    (hP : ∀ k : Fin 2016, P (ix2 b k) = par X W1 b1 W2 b2 r k) (i j : Fin 64) :
    fillBelow (Val := Elt Ideal) (e := .f32) (Ideal.ofBits .f32 0x00000000#32) P 63 (ix3 b i j) = upper X W1 b1 W2 b2 r i j := by
  rw [fillBelow_ix3]
  unfold upper
  have hj := j.isLt
  by_cases h : i.val < j.val
  · rw [dif_pos ⟨h, by omega⟩, dif_pos h, hP]
  · rw [dif_neg (fun h' => h h'.1), dif_neg h]

end Cert.Skew

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The printed index maps over the 64 grid points: the x block and the output block move with the point along the
    batch axis, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem point_lt (t : Fin cfg0.N) : t.val < 64 := lt_of_lt_of_eq t.isLt N_0

/-! ## The operands the launch finds -/

theorem V_v1 (c : Dev nD) : (V m c main_v1 : S64x128.Idx → EReal)
    = truncf (F := Ideal) FTy.bf16 (transpose S64x128 [1, 0] (m ((c : Thread nD τ).loc main_arg1)) transposes_S128x64_S64x128_1_0) bitsLt_bf16_f32 := by
  dsimp only [Gen.V, Gen.hostOps0]; after_results

theorem V_v3 (c : Dev nD) : (V m c main_v3 : S128x2016.Idx → EReal)
    = truncf (F := Ideal) FTy.bf16 (transpose S128x2016 [1, 0] (m ((c : Thread nD τ).loc main_arg3)) transposes_S2016x128_S128x2016_1_0) bitsLt_bf16_f32 := by
  dsimp only [Gen.V, Gen.hostOps0]; after_results

theorem V_v4 (c : Dev nD) : (V m c main_v4 : S1x128.Idx → EReal)
    = shapeCast S1x128 (m ((c : Thread nD τ).loc main_arg2)) shapeCasts_S128_S1x128 := by
  dsimp only [Gen.V, Gen.hostOps0]; after_results; rfl

theorem V_v5 (c : Dev nD) : (V m c main_v5 : S1x2016.Idx → EReal)
    = shapeCast S1x2016 (m ((c : Thread nD τ).loc main_arg4)) shapeCasts_S2016_S1x2016 := by
  dsimp only [Gen.V, Gen.hostOps0]; after_results; rfl

/-! ## The blocks at a point -/

/-- The x block of point t holds the batch rows from 256 t. -/
theorem blk0 (c : Dev nD) (t : Fin cfg0.N) (b : Fin 256) (d : Fin 64) :
    iblk m c 0 t (ix2 b d)
      = (m ((c : Thread nD τ).loc main_arg0) : S16384x64.Idx → EReal) (ix2 (⟨t.val * 256 + b.val, by have := point_lt t; omega⟩ : Fin 16384) d) := by
  show V m c main_arg0 (((cfg0.win 0).blk t).view.emb (ix2 b d)) = _
  rw [V_main_arg0]
  obtain ⟨e0, e1, -⟩ := idx_facts t
  refine congrArg _ (funext fun a => Fin.ext ?_)
  match a with
  | ⟨0, _⟩ => show win0_0.index t (0 : Fin 2) * 256 + 1 * b.val = t.val * 256 + b.val; omega
  | ⟨1, _⟩ => show win0_0.index t (1 : Fin 2) * 64 + 1 * d.val = d.val; omega

/-- The first weight block is the whole transposed first weight matrix. -/
theorem blk1 (c : Dev nD) (t : Fin cfg0.N) (d : Fin 64) (h : Fin 128) :
    iblk m c 1 t (ix2 d h) = (m ((c : Thread nD τ).loc main_arg1) : S128x64.Idx → EReal) (ix2 h d) := by
  show V m c main_v1 (((cfg0.win 1).blk t).view.emb (ix2 d h)) = _
  rw [V_v1]
  obtain ⟨-, -, e0, e1, -⟩ := idx_facts t
  show transpose S64x128 [1, 0] (m ((c : Thread nD τ).loc main_arg1)) transposes_S128x64_S64x128_1_0 (((cfg0.win 1).blk t).view.emb (ix2 d h)) = _
  refine transpose_apply [1, 0] _ transposes_S128x64_S64x128_1_0 _ (ix2 h d) fun a => ?_
  match a with
  | ⟨0, _⟩ => show d.val = win0_1.index t (0 : Fin 2) * 64 + 1 * d.val; omega
  | ⟨1, _⟩ => show h.val = win0_1.index t (1 : Fin 2) * 128 + 1 * h.val; omega

/-- The first bias block is the bias as one row. -/
theorem blk2 (c : Dev nD) (t : Fin cfg0.N) (h : Fin 128) :
    iblk m c 2 t (ix2 (0 : Fin 1) h) = (m ((c : Thread nD τ).loc main_arg2) : S128.Idx → EReal) (ix1 h) := by
  show V m c main_v4 (((cfg0.win 2).blk t).view.emb (ix2 (0 : Fin 1) h)) = _
  rw [V_v4]
  obtain ⟨-, -, -, -, e0, e1, -⟩ := idx_facts t
  refine shapeCast_apply _ shapeCasts_S128_S1x128 _ (ix1 h) ?_
  rw [Shape.rowMajor_val_one, Shape.rowMajor_val_two]
  show h.val = (win0_2.index t (0 : Fin 2) * 1 + 1 * 0) * 128 + (win0_2.index t (1 : Fin 2) * 128 + 1 * h.val)
  omega

/-- The second weight block is the whole transposed second weight matrix. -/
theorem blk3 (c : Dev nD) (t : Fin cfg0.N) (h : Fin 128) (k : Fin 2016) :
    iblk m c 3 t (ix2 h k) = (m ((c : Thread nD τ).loc main_arg3) : S2016x128.Idx → EReal) (ix2 k h) := by
  show V m c main_v3 (((cfg0.win 3).blk t).view.emb (ix2 h k)) = _
  rw [V_v3]
  obtain ⟨-, -, -, -, -, -, e0, e1, -⟩ := idx_facts t
  show transpose S128x2016 [1, 0] (m ((c : Thread nD τ).loc main_arg3)) transposes_S2016x128_S128x2016_1_0 (((cfg0.win 3).blk t).view.emb (ix2 h k)) = _
  refine transpose_apply [1, 0] _ transposes_S2016x128_S128x2016_1_0 _ (ix2 k h) fun a => ?_
  match a with
  | ⟨0, _⟩ => show h.val = win0_3.index t (0 : Fin 2) * 128 + 1 * h.val; omega
  | ⟨1, _⟩ => show k.val = win0_3.index t (1 : Fin 2) * 2016 + 1 * k.val; omega

/-- The second bias block is the bias as one row. -/
theorem blk4 (c : Dev nD) (t : Fin cfg0.N) (k : Fin 2016) :
    iblk m c 4 t (ix2 (0 : Fin 1) k) = (m ((c : Thread nD τ).loc main_arg4) : S2016.Idx → EReal) (ix1 k) := by
  show V m c main_v5 (((cfg0.win 4).blk t).view.emb (ix2 (0 : Fin 1) k)) = _
  rw [V_v5]
  obtain ⟨-, -, -, -, -, -, -, -, e0, e1, -⟩ := idx_facts t
  refine shapeCast_apply _ shapeCasts_S2016_S1x2016 _ (ix1 k) ?_
  rw [Shape.rowMajor_val_one, Shape.rowMajor_val_two]
  show k.val = (win0_4.index t (0 : Fin 2) * 1 + 1 * 0) * 2016 + (win0_4.index t (1 : Fin 2) * 2016 + 1 * k.val)
  omega

end Cert.KernelIdeal.Blocks

end
-- ==== Proof.KValue.lean ====
/-
  The kernel's result array is the specification's array.

  At a point t the body's parameter block is the specification's parameter vectors of the batch rows 256 t … 256 t + 255
  (the blocks read where the specification reads the arrays), so the block it writes back — the upper-triangular fill
  minus its transpose — is the block of the specification's array at t; the 64 blocks tile the batch axis, so after the
  run the whole result array is the specification's.
-/
import proofs.«117296_j54039278518768_2_alg».proof.Proof.KBlocks

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-- A parameter block computed from blocks that read the arrays where the specification does (row b of the x block is
    batch row r; the weight blocks are the transposed weight matrices; the bias blocks the biases as rows) is the
    specification's parameter vector of row r. -/
theorem par_of_blocks (X : (⟨2, ![16384, 64]⟩ : Shape).Idx → EReal) (W1 : (⟨2, ![128, 64]⟩ : Shape).Idx → EReal)
    (b1 : (⟨1, ![128]⟩ : Shape).Idx → EReal) (W2 : (⟨2, ![2016, 128]⟩ : Shape).Idx → EReal)
    (b2 : (⟨1, ![2016]⟩ : Shape).Idx → EReal)
    (x0 : Vec Ideal S256x64 .f32) (x1 : Vec Ideal S64x128 .bf16) (x2 : Vec Ideal S1x128 .f32)
    (x3 : Vec Ideal S128x2016 .bf16) (x4 : Vec Ideal S1x2016 .f32) (r : Fin 16384) (b : Fin 256)
    (h0 : ∀ d : Fin 64, x0 (ix2 b d) = X (ix2 r d)) (h1 : ∀ (d : Fin 64) (h : Fin 128), x1 (ix2 d h) = W1 (ix2 h d))
    (h2 : ∀ h : Fin 128, x2 (ix2 (0 : Fin 1) h) = b1 (ix1 h)) (h3 : ∀ (h : Fin 128) (k : Fin 2016), x3 (ix2 h k) = W2 (ix2 k h))
    (h4 : ∀ k : Fin 2016, x4 (ix2 (0 : Fin 1) k) = b2 (ix1 k)) (k : Fin 2016) :
    k0_pay2 (F := Ideal) x0 x1 x2 x3 x4 (ix2 b k) = Cert.Skew.par X W1 b1 W2 b2 r k := by
  rw [Body.params_apply]
  unfold Cert.Skew.par Cert.Skew.hid
  rw [h4 k]
  refine congrArg (· + b2 (ix1 k)) (Finset.sum_congr rfl fun h _ => ?_)
  rw [h3 h k, h2 h]
  refine congrArg (fun s => Ideal.tanh (s + b1 (ix1 h)) * W2 (ix2 k h)) (Finset.sum_congr rfl fun d _ => ?_)
  rw [h0 d, h1 d h]

variable (m : (ℓ : Loc nD τ sig) → Buf (Elt Ideal) ℓ) (ρ : Dev nD → PrngReg)

/-- What point t writes back is block t of the specification's array of the argument arrays. -/
theorem flushed_eq (c : Dev nD) (t : Fin cfg0.N) :
    (dats m 0 c).flushed 5 t = ((cfg0.win 5).blk t).view.read (Elt Ideal)
      (Cert.Skew.skewArr (m ((c : Thread nD τ).loc main_arg0)) (m ((c : Thread nD τ).loc main_arg1))
        (m ((c : Thread nD τ).loc main_arg2)) (m ((c : Thread nD τ).loc main_arg3)) (m ((c : Thread nD τ).loc main_arg4))) := by
  rw [Value.flushed5_A, Body.out_eq]
  funext y
  obtain ⟨b, i, j, rfl⟩ : ∃ (b : Fin 256) (i j : Fin 64), y = ix3 b i j := ⟨y 0, y 1, y 2, eq_ix3 y⟩
  have ht := point_lt t
  obtain ⟨-, -, -, -, -, -, -, -, -, -, e0, e1, e2⟩ := idx_facts t
  have hemb : ((cfg0.win 5).blk t).view.emb (ix3 b i j)
      = (ix3 (⟨t.val * 256 + b.val, by omega⟩ : Fin 16384) i j : S16384x64x64.Idx) := by
    funext a
    apply Fin.ext
    match a with
    | ⟨0, _⟩ => show win0_5.index t (0 : Fin 3) * 256 + 1 * b.val = t.val * 256 + b.val; omega
    | ⟨1, _⟩ => show win0_5.index t (1 : Fin 3) * 64 + 1 * i.val = i.val; omega
    | ⟨2, _⟩ => show win0_5.index t (2 : Fin 3) * 64 + 1 * j.val = j.val; omega
  show k0_pay1 (F := Ideal) _ (ix3 b i j) = Cert.Skew.skewArr _ _ _ _ _ (((cfg0.win 5).blk t).view.emb (ix3 b i j))
  rw [hemb, Cert.Skew.skewArr_ix3, Body.skew_apply]
  unfold Cert.Skew.skew
  have hP : ∀ (b' : Fin 256) (k : Fin 2016),
      k0_pay2 (F := Ideal) (iblk m c 0 t) (iblk m c 1 t) (iblk m c 2 t) (iblk m c 3 t) (iblk m c 4 t) (ix2 b' k)
        = Cert.Skew.par (m ((c : Thread nD τ).loc main_arg0)) (m ((c : Thread nD τ).loc main_arg1))
            (m ((c : Thread nD τ).loc main_arg2)) (m ((c : Thread nD τ).loc main_arg3)) (m ((c : Thread nD τ).loc main_arg4))
            (⟨t.val * 256 + b'.val, by have := b'.isLt; omega⟩ : Fin 16384) k := fun b' k =>
    par_of_blocks _ _ _ _ _ (iblk m c 0 t) (iblk m c 1 t) (iblk m c 2 t) (iblk m c 3 t) (iblk m c 4 t) _ b'
      (fun d => blk0 m c t b' d) (fun d h => blk1 m c t d h) (fun h => blk2 m c t h) (fun h k => blk3 m c t h k)
      (fun k => blk4 m c t k) k
  exact congrArg₂ (· - ·)
    (Cert.Skew.fill_upper _ _ _ _ _ _ _ b (fun k => hP b k) i j)
    (Cert.Skew.fill_upper _ _ _ _ _ _ _ b (fun k => hP b k) j i)

/-- An index of the result array is in point t's block iff each coordinate is in the block's range on its axis. -/
theorem mem_blk (t : Fin cfg0.N) (i : S16384x64x64.Idx) :
    i ∈ ((cfg0.win 5).blk t).view.set ↔ ∀ a : Fin 3, win0_5.index t a * S256x64x64.size a ≤ (i a).val
      ∧ (i a).val < win0_5.index t a * S256x64x64.size a + S256x64x64.size a := by
  show i ∈ ((View.whole main_v6).slice (win0_5.rect t)).set ↔ _
  rw [View.set_slice_whole, Rect.mem_set_unit]
  exact Iff.rfl

/-- Every index of the result array is in the block of the point that handles its batch row. -/
theorem cover (i : S16384x64x64.Idx) :
    ∃ t : Fin cfg0.N, (cfg0.win 5).flush t = true ∧ i ∈ ((cfg0.win 5).blk t).view.set := by
  have h0 : (i 0).val < 16384 := (i 0).isLt
  have h1 : (i 1).val < 64 := (i 1).isLt
  have h2 : (i 2).val < 64 := (i 2).isLt
  have hN : (i 0).val / 256 < cfg0.N := lt_of_lt_of_eq (by omega : (i 0).val / 256 < 64) N_0.symm
  refine ⟨⟨(i 0).val / 256, hN⟩, flush0_5 _, ?_⟩
  rw [mem_blk]
  obtain ⟨-, -, -, -, -, -, -, -, -, -, e0, e1, e2⟩ := idx_facts ⟨(i 0).val / 256, hN⟩
  have e0' : win0_5.index ⟨(i 0).val / 256, hN⟩ (0 : Fin 3) = (i 0).val / 256 := e0
  intro a
  match a with
  | ⟨0, _⟩ =>
    show win0_5.index ⟨(i 0).val / 256, hN⟩ (0 : Fin 3) * 256 ≤ (i 0).val
      ∧ (i 0).val < win0_5.index ⟨(i 0).val / 256, hN⟩ (0 : Fin 3) * 256 + 256
    omega
  | ⟨1, _⟩ =>
    show win0_5.index ⟨(i 0).val / 256, hN⟩ (1 : Fin 3) * 64 ≤ (i 1).val
      ∧ (i 1).val < win0_5.index ⟨(i 0).val / 256, hN⟩ (1 : Fin 3) * 64 + 64
    omega
  | ⟨2, _⟩ =>
    show win0_5.index ⟨(i 0).val / 256, hN⟩ (2 : Fin 3) * 64 ≤ (i 2).val
      ∧ (i 2).val < win0_5.index ⟨(i 0).val / 256, hN⟩ (2 : Fin 3) * 64 + 64
    omega

/-- The result array after the run is the specification's array of the argument arrays. -/
theorem final (c : Dev nD) :
    (dats m 0 c).arrAt 5 cfg0.N
      = Cert.Skew.skewArr (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 5 _ (fun t _ => flushed_eq m c t) cover

/-- The kernel's run: it terminates with the result array at the specification's array and the arguments unchanged. -/
theorem run : θ_run defs (onTc (τ := τ) (main (F := Ideal))) ⟨m, fun _ => 0, ρ⟩ fun r => ∀ c : Dev nD,
      r.2.mem ((c : Thread nD τ).loc main_v6)
        = Cert.Skew.skewArr (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.RefRun.lean ====
/-
  The reference program's @main as the list of its 31 host operations, and its run read back: every weakly fair
  execution terminates with the result buffer at a composed pure term of the arguments' launch contents, the
  arguments unchanged. The composed term is cut into named stages: the hidden layer, the parameter array, the
  table of index pairs, the scattered array and the result.
-/
import proofs.«117296_j54039278518768_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the composed term -/

/-- The hidden layer: tanh of x · W1ᵀ + b1, the bias broadcast along the batch axis. -/
def hidden (a0 : (⟨S16384x64, .f32⟩ : BufTy).Contents (Elt F)) (a1 : (⟨S128x64, .f32⟩ : BufTy).Contents (Elt F)) (a2 : (⟨S128, .f32⟩ : BufTy).Contents (Elt F)) :
    (⟨S16384x128, .f32⟩ : BufTy).Contents (Elt F) :=
  Host.tanh (addf (Host.dotGeneral dot_S16384x64_S64x128_S16384x128_1_0_0_1_n_n none a0 (transpose S64x128 [1, 0] a1 transposes_S128x64_S64x128_1_0))
    (broadcastInDim S16384x128 ![0, 1] bcast_S1x128_S16384x128_0_1 (broadcastInDim S1x128 ![1] bcast_S128_S1x128_1 a2)))

/-- The parameter array: hidden · W2ᵀ + b2, the bias broadcast along the batch axis. -/
def params (a0 : (⟨S16384x64, .f32⟩ : BufTy).Contents (Elt F)) (a1 : (⟨S128x64, .f32⟩ : BufTy).Contents (Elt F)) (a2 : (⟨S128, .f32⟩ : BufTy).Contents (Elt F))
    (a3 : (⟨S2016x128, .f32⟩ : BufTy).Contents (Elt F)) (a4 : (⟨S2016, .f32⟩ : BufTy).Contents (Elt F)) : (⟨S16384x2016, .f32⟩ : BufTy).Contents (Elt F) :=
  addf (Host.dotGeneral dot_S16384x128_S128x2016_S16384x2016_1_0_0_1_n_n none (hidden a0 a1 a2) (transpose S128x2016 [1, 0] a3 transposes_S2016x128_S128x2016_1_0))
    (broadcastInDim S16384x2016 ![0, 1] bcast_S1x2016_S16384x2016_0_1 (broadcastInDim S1x2016 ![1] bcast_S2016_S1x2016_1 a4))

/-- One column of the index table, from a table of 2016 words: the words where the all-false mask selects them (the
    other branch, the words plus 64, is never taken), as a 2016 × 1 array. -/
def idxCol (lit : Fin 2016 → BitVec 32) : (⟨S2016x1, .i32⟩ : BufTy).Contents (Elt F) :=
  broadcastInDim S2016x1 ![0] bcast_S2016_S2016x1_0
    (select (constantI S2016 1 0#1 : (⟨S2016, .i1⟩ : BufTy).Contents (Elt F))
      (addi (fun i => lit (S2016.rowMajor i) : (⟨S2016, .i32⟩ : BufTy).Contents (Elt F)) (broadcastInDim S2016 ![] bcast_S_S2016 (constantI S_ 32 64#32 : (⟨S_, .i32⟩ : BufTy).Contents (Elt F))))
      (fun i => lit (S2016.rowMajor i) : (⟨S2016, .i32⟩ : BufTy).Contents (Elt F)) : (⟨S2016, .i32⟩ : BufTy).Contents (Elt F))

/-- The table of index pairs: the row indices in column 0, the column indices in column 1. -/
def idxTab : (⟨S2016x2, .i32⟩ : BufTy).Contents (Elt F) :=
  concatenate S2016x2 1 [⟨S2016x1, (idxCol lit0 : (⟨S2016x1, .i32⟩ : BufTy).Contents (Elt F))⟩, ⟨S2016x1, (idxCol lit1 : (⟨S2016x1, .i32⟩ : BufTy).Contents (Elt F))⟩] concatenates_S2016x1_S2016x1_S2016x2_d1

/-- The zero array with parameter k of each batch row written at the k-th index pair. -/
def scattered (a0 : (⟨S16384x64, .f32⟩ : BufTy).Contents (Elt F)) (a1 : (⟨S128x64, .f32⟩ : BufTy).Contents (Elt F)) (a2 : (⟨S128, .f32⟩ : BufTy).Contents (Elt F))
    (a3 : (⟨S2016x128, .f32⟩ : BufTy).Contents (Elt F)) (a4 : (⟨S2016, .f32⟩ : BufTy).Contents (Elt F)) : (⟨S16384x64x64, .f32⟩ : BufTy).Contents (Elt F) :=
  Host.scatter scatter_S16384x64x64_S2016x2_S16384x2016_0_12_12_1 (fun _ b => b)
    (broadcastInDim S16384x64x64 ![] bcast_S_S16384x64x64 (constant S_ .f32 0x00000000#32 : (⟨S_, .f32⟩ : BufTy).Contents (Elt F)) : (⟨S16384x64x64, .f32⟩ : BufTy).Contents (Elt F))
    (idxTab : (⟨S2016x2, .i32⟩ : BufTy).Contents (Elt F)) (params a0 a1 a2 a3 a4)

/-- The result: the scattered array minus its transpose in the last two axes. -/
def result (a0 : (⟨S16384x64, .f32⟩ : BufTy).Contents (Elt F)) (a1 : (⟨S128x64, .f32⟩ : BufTy).Contents (Elt F)) (a2 : (⟨S128, .f32⟩ : BufTy).Contents (Elt F))
    (a3 : (⟨S2016x128, .f32⟩ : BufTy).Contents (Elt F)) (a4 : (⟨S2016, .f32⟩ : BufTy).Contents (Elt F)) : (⟨S16384x64x64, .f32⟩ : BufTy).Contents (Elt F) :=
  subf (scattered a0 a1 a2 a3 a4) (transpose S16384x64x64 [0, 2, 1] (scattered a0 a1 a2 a3 a4) transposes_S16384x64x64_S16384x64x64_0_2_1)

/-! ## The run -/

/-- @main's 31 operations, in order. -/
abbrev ops : List (HloOp τ sig (Elt F)) :=
  [ nullary main_c (fun i => lit0 (S2016.rowMajor i)),
    nullary main_c_0 (constantI S2016 1 0#1),
    nullary main_c_1 (fun i => lit1 (S2016.rowMajor i)),
    nullary main_c_2 (constantI S2016 1 0#1),
    unary main_arg1 main_v0 ((transpose S64x128 [1, 0] · transposes_S128x64_S64x128_1_0) : (⟨S128x64, .f32⟩ : BufTy).Contents (Elt F) → (⟨S64x128, .f32⟩ : BufTy).Contents (Elt F)),
    binary main_arg0 main_v0 main_v1 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S16384x128 ![0, 1] bcast_S1x128_S16384x128_0_1 : (⟨S1x128, .f32⟩ : BufTy).Contents (Elt F) → (⟨S16384x128, .f32⟩ : BufTy).Contents (Elt F)),
    binary main_v1 main_v3 main_v4 (addf : (⟨S16384x128, .f32⟩ : BufTy).Contents (Elt F) → (⟨S16384x128, .f32⟩ : BufTy).Contents (Elt F) → (⟨S16384x128, .f32⟩ : BufTy).Contents (Elt F)),
    unary main_v4 main_v5 (Host.tanh : (⟨S16384x128, .f32⟩ : BufTy).Contents (Elt F) → (⟨S16384x128, .f32⟩ : BufTy).Contents (Elt F)),
    unary main_arg3 main_v6 ((transpose S128x2016 [1, 0] · transposes_S2016x128_S128x2016_1_0) : (⟨S2016x128, .f32⟩ : BufTy).Contents (Elt F) → (⟨S128x2016, .f32⟩ : BufTy).Contents (Elt F)),
    binary main_v5 main_v6 main_v7 ((fun l r => Host.dotGeneral dot_S16384x128_S128x2016_S16384x2016_1_0_0_1_n_n none l r) : (⟨S16384x128, .f32⟩ : BufTy).Contents (Elt F) → (⟨S128x2016, .f32⟩ : BufTy).Contents (Elt F) → (⟨S16384x2016, .f32⟩ : BufTy).Contents (Elt F)),
    unary main_arg4 main_v8 (broadcastInDim S1x2016 ![1] bcast_S2016_S1x2016_1 : (⟨S2016, .f32⟩ : BufTy).Contents (Elt F) → (⟨S1x2016, .f32⟩ : BufTy).Contents (Elt F)),
    unary main_v8 main_v9 (broadcastInDim S16384x2016 ![0, 1] bcast_S1x2016_S16384x2016_0_1 : (⟨S1x2016, .f32⟩ : BufTy).Contents (Elt F) → (⟨S16384x2016, .f32⟩ : BufTy).Contents (Elt F)),
    binary main_v7 main_v9 main_v10 (addf : (⟨S16384x2016, .f32⟩ : BufTy).Contents (Elt F) → (⟨S16384x2016, .f32⟩ : BufTy).Contents (Elt F) → (⟨S16384x2016, .f32⟩ : BufTy).Contents (Elt F)),
    nullary main_cst (constant S_ .f32 0x00000000#32),
    unary main_cst main_v11 (broadcastInDim S16384x64x64 ![] bcast_S_S16384x64x64 : (⟨S_, .f32⟩ : BufTy).Contents (Elt F) → (⟨S16384x64x64, .f32⟩ : BufTy).Contents (Elt F)),
    nullary main_c_3 (constantI S_ 32 64#32),
    unary main_c_3 main_v12 (broadcastInDim S2016 ![] bcast_S_S2016 : (⟨S_, .i32⟩ : BufTy).Contents (Elt F) → (⟨S2016, .i32⟩ : BufTy).Contents (Elt F)),
    binary main_c main_v12 main_v13 (addi : (⟨S2016, .i32⟩ : BufTy).Contents (Elt F) → (⟨S2016, .i32⟩ : BufTy).Contents (Elt F) → (⟨S2016, .i32⟩ : BufTy).Contents (Elt F)),
    ternary main_c_0 main_v13 main_c main_v14 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_4 (constantI S_ 32 64#32),
    unary main_c_4 main_v15 (broadcastInDim S2016 ![] bcast_S_S2016 : (⟨S_, .i32⟩ : BufTy).Contents (Elt F) → (⟨S2016, .i32⟩ : BufTy).Contents (Elt F)),
    binary main_c_1 main_v15 main_v16 (addi : (⟨S2016, .i32⟩ : BufTy).Contents (Elt F) → (⟨S2016, .i32⟩ : BufTy).Contents (Elt F) → (⟨S2016, .i32⟩ : BufTy).Contents (Elt F)),
    ternary main_c_2 main_v16 main_c_1 main_v17 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v14 main_v18 (broadcastInDim S2016x1 ![0] bcast_S2016_S2016x1_0 : (⟨S2016, .i32⟩ : BufTy).Contents (Elt F) → (⟨S2016x1, .i32⟩ : BufTy).Contents (Elt F)),
    unary main_v17 main_v19 (broadcastInDim S2016x1 ![0] bcast_S2016_S2016x1_0 : (⟨S2016, .i32⟩ : BufTy).Contents (Elt F) → (⟨S2016x1, .i32⟩ : BufTy).Contents (Elt F)),
    binary main_v18 main_v19 main_v20 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    ternary main_v11 main_v20 main_v10 main_v21 ((fun x i u => Host.scatter scatter_S16384x64x64_S2016x2_S16384x2016_0_12_12_1 (fun _ b => b) x i u) : (⟨S16384x64x64, .f32⟩ : BufTy).Contents (Elt F) → (⟨S2016x2, .i32⟩ : BufTy).Contents (Elt F) → (⟨S16384x2016, .f32⟩ : BufTy).Contents (Elt F) → (⟨S16384x64x64, .f32⟩ : BufTy).Contents (Elt F)),
    unary main_v21 main_v22 ((transpose S16384x64x64 [0, 2, 1] · transposes_S16384x64x64_S16384x64x64_0_2_1) : (⟨S16384x64x64, .f32⟩ : BufTy).Contents (Elt F) → (⟨S16384x64x64, .f32⟩ : BufTy).Contents (Elt F)),
    binary main_v21 main_v22 main_v23 (subf : (⟨S16384x64x64, .f32⟩ : BufTy).Contents (Elt F) → (⟨S16384x64x64, .f32⟩ : BufTy).Contents (Elt F) → (⟨S16384x64x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., unary_bufs_sub .., binary_bufs_sub ..⟩

/-- On every device, for any float values, from any memory with zero counters: every weakly fair execution of
    @main terminates with the result buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v23).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.RefRun

end
-- ==== Proof.RefTable.lean ====
/-
  The table of index pairs, read at an index, and the two arithmetic facts about it.

  Column 0 of the table holds the row index and column 1 the column index of the k-th pair of the strict upper
  triangle of a 64 × 64 matrix in row-major order. Two facts, each checked by evaluating the 2016 entries:
  the pair number tri i j holds (i, j), and entry k holds a pair (i, j) with i < j < 64 whose number is k.
  So the table is a bijection between the 2016 positions and the pairs above the diagonal.
-/
import proofs.«117296_j54039278518768_2_alg».proof.Proof.RefRun
import proofs.«117296_j54039278518768_2_alg».proof.Proof.Spec
import Idealize.ShloMosaic.Lib.Pipeline.Value
import Idealize.ShloMosaic.Lib.ValueIdx

noncomputable section

namespace Cert.ReferenceIdeal.RefTable

open Cert.ReferenceIdeal Cert.ReferenceIdeal.Gen Cert.ReferenceIdeal.RefRun Cert.Skew Idealize.ShloMosaic Idealize.ShloMosaic.ValueIdx

/-! ## The two facts about the 2016 entries -/

/-- Entry number tri i j holds the pair (i, j), for i < j < 64. -/
theorem tab_pair : ∀ i j : Fin 64, i.val < j.val →
    (lit0t (tri i.val j.val)).toNat = i.val ∧ (lit1t (tri i.val j.val)).toNat = j.val := by
  decide +kernel

/-- Entry k holds a pair (i, j) with i < j < 64 whose number is k. -/
theorem tab_inv : ∀ k : Fin 2016,
    (lit0 k).toNat < (lit1 k).toNat ∧ (lit1 k).toNat < 64 ∧ tri (lit0 k).toNat (lit1 k).toNat = k.val := by
  decide +kernel

theorem lit0_lt (k : Fin 2016) : (lit0 k).toNat < 64 := by have := tab_inv k; omega
theorem lit1_lt (k : Fin 2016) : (lit1 k).toNat < 64 := (tab_inv k).2.1

/-! ## The table read at an index -/

variable {F : FTy → Type} [FloatOps F]

/-- A column of the table at row k is word k of its list: the mask is false everywhere, so the select keeps its last
    operand, and the 2016 × 1 layout reads row k of the vector. -/
theorem idxCol_apply (lit : Fin 2016 → BitVec 32) (k : Fin 2016) : idxCol (F := F) lit (ix2 k (0 : Fin 1)) = lit k := by
  unfold idxCol
  rw [broadcastInDim_apply _ _ _ (ix2 k (0 : Fin 1)) (ix1 k) (by intro a; match a with | ⟨0, _⟩ => rfl)]
  rw [select_apply]
  show Scalar.select 0#1 _ _ = _
  rw [select_zero]
  show lit (S2016.rowMajor (ix1 k)) = lit k
  congr 1
  exact Fin.ext (Shape.rowMajor_val_one _)

/-- Column 0 of the table at row k is the k-th row index. -/
theorem idxTab_apply0 (k : Fin 2016) : idxTab (F := F) (ix2 k (0 : Fin 2)) = lit0 k := by
  unfold idxTab
  rw [concatenate_apply_piece (1 : Fin 2) _ _ (ix2 k (0 : Fin 2)) 0 (by show (0 : Nat) < 2; decide) S2016x1 (idxCol lit0) rfl rfl 0 rfl
    (ix2 k (0 : Fin 1)) (by intro b hb; match b with | ⟨0, _⟩ => rfl | ⟨1, _⟩ => exact absurd rfl hb) rfl]
  exact idxCol_apply lit0 k

/-- Column 1 of the table at row k is the k-th column index. -/
theorem idxTab_apply1 (k : Fin 2016) : idxTab (F := F) (ix2 k (1 : Fin 2)) = lit1 k := by
  unfold idxTab
  rw [concatenate_apply_piece (1 : Fin 2) _ _ (ix2 k (1 : Fin 2)) 1 (by show (1 : Nat) < 2; decide) S2016x1 (idxCol lit1) rfl rfl 1 rfl
    (ix2 k (0 : Fin 1)) (by intro b hb; match b with | ⟨0, _⟩ => rfl | ⟨1, _⟩ => exact absurd rfl hb) rfl]
  exact idxCol_apply lit1 k

end Cert.ReferenceIdeal.RefTable

end
-- ==== Proof.RefParams.lean ====
/-
  The parameter array read at an index, at the extended reals.

  The first product contracts row r of x with column h of the transposed first weight matrix, which is row h of the
  matrix itself; adding the bias of unit h and taking tanh gives the hidden vector of the specification. The second
  product contracts the hidden vector of row r with row k of the second weight matrix; adding the bias of position k
  gives parameter k of row r.
-/
import proofs.«117296_j54039278518768_2_alg».proof.Proof.RefRun
import proofs.«117296_j54039278518768_2_alg».proof.Proof.Spec
import proofs.«117296_j54039278518768_2_alg».proof.Proof.LibDotSum

noncomputable section

namespace Cert.ReferenceIdeal.RefParams

open Cert.ReferenceIdeal Cert.ReferenceIdeal.Gen Cert.ReferenceIdeal.RefRun Idealize.ShloMosaic Idealize.ShloMosaic.ValueIdx

/-- The hidden layer at (r, h) is the specification's: the contraction over the 64 input features of x (r, d) with
    W1 (h, d), plus the bias of unit h, under tanh. -/
theorem hidden_apply (a0 : (⟨2, ![16384, 64]⟩ : Shape).Idx → EReal) (a1 : (⟨2, ![128, 64]⟩ : Shape).Idx → EReal)
    (a2 : (⟨1, ![128]⟩ : Shape).Idx → EReal) (r : Fin 16384) (h : Fin 128) :
    RefRun.hidden (F := Ideal) a0 a1 a2 (ix2 r h) = Cert.Skew.hid a0 a1 a2 r h := by
  unfold RefRun.hidden Cert.Skew.hid
  show Ideal.tanh (FloatOps.dotGeneral (F := Ideal) dot_S16384x64_S64x128_S16384x128_1_0_0_1_n_n none .single a0
      (transpose S64x128 [1, 0] a1 transposes_S128x64_S64x128_1_0) (ix2 r h)
    + broadcastInDim S16384x128 ![0, 1] bcast_S1x128_S16384x128_0_1 (broadcastInDim S1x128 ![1] bcast_S128_S1x128_1 a2) (ix2 r h)) = _
  rw [Ideal.dotGeneral_apply, Cert.LibDotSum.bias_apply,
    Cert.LibDotSum.sum_dot dot_S16384x64_S64x128_S16384x128_1_0_0_1_n_n rfl rfl (fun _ _ => rfl) (fun _ _ => rfl)
      (fun _ _ => rfl) (fun _ _ => rfl)]
  congr 2
  refine Finset.sum_congr rfl fun d _ => ?_
  rw [transpose_apply [1, 0] a1 transposes_S128x64_S64x128_1_0 (ix2 d h) (ix2 h d)
    (by intro b; match b with | ⟨0, _⟩ => rfl | ⟨1, _⟩ => rfl)]

/-- The parameter array at (r, k) is the specification's: the contraction over the 128 hidden units of the hidden
    vector of row r with W2 (k, h), plus the bias of position k. -/
theorem params_apply (a0 : (⟨2, ![16384, 64]⟩ : Shape).Idx → EReal) (a1 : (⟨2, ![128, 64]⟩ : Shape).Idx → EReal)
    (a2 : (⟨1, ![128]⟩ : Shape).Idx → EReal) (a3 : (⟨2, ![2016, 128]⟩ : Shape).Idx → EReal)
    (a4 : (⟨1, ![2016]⟩ : Shape).Idx → EReal) (r : Fin 16384) (k : Fin 2016) :
    RefRun.params (F := Ideal) a0 a1 a2 a3 a4 (ix2 r k) = Cert.Skew.par a0 a1 a2 a3 a4 r k := by
  unfold RefRun.params Cert.Skew.par
  show FloatOps.dotGeneral (F := Ideal) dot_S16384x128_S128x2016_S16384x2016_1_0_0_1_n_n none .single (RefRun.hidden (F := Ideal) a0 a1 a2)
      (transpose S128x2016 [1, 0] a3 transposes_S2016x128_S128x2016_1_0) (ix2 r k)
    + broadcastInDim S16384x2016 ![0, 1] bcast_S1x2016_S16384x2016_0_1 (broadcastInDim S1x2016 ![1] bcast_S2016_S1x2016_1 a4) (ix2 r k) = _
  rw [Ideal.dotGeneral_apply, Cert.LibDotSum.bias_apply,
    Cert.LibDotSum.sum_dot dot_S16384x128_S128x2016_S16384x2016_1_0_0_1_n_n rfl rfl (fun _ _ => rfl) (fun _ _ => rfl)
      (fun _ _ => rfl) (fun _ _ => rfl)]
  congr 1
  refine Finset.sum_congr rfl fun h _ => ?_
  rw [hidden_apply, transpose_apply [1, 0] a3 transposes_S2016x128_S128x2016_1_0 (ix2 h k) (ix2 k h)
    (by intro b; match b with | ⟨0, _⟩ => rfl | ⟨1, _⟩ => rfl)]

end Cert.ReferenceIdeal.RefParams

end
-- ==== Proof.LibWindowScatter.lean ====
/-
  A scatter whose body returns the update, read at an index.

  The host's scatter is a left fold of point updates over the update's indices in row-major order.
  When the body keeps the update and discards the old value, the fold at an index i is the update at
  the one update index that lands on i, and the operand at i when no update index lands there.
  The special case of one whole H x W window written at a fixed start (r0, c0) into an A x B array
  follows: inside the window the result is the update at the offset (p - r0, q - c0), outside it is
  the operand.
-/
import Idealize.ShloMosaic.PureOps.Ideal
import Idealize.ShloMosaic.Lib.ValueIdx

namespace Cert.Lib.WindowScatter

open Idealize.ShloMosaic Idealize.ShloMosaic.ValueIdx

/-! ## A left fold of point updates, read at one index -/

/-- A left fold whose step leaves the value at i alone for every list member outside P
    leaves the starting array's value at i, when no member of the list is in P. -/
theorem foldl_miss {ι κ α : Type} (g : (ι → α) → κ → (ι → α)) (i : ι) (P : κ → Prop)
    (hmiss : ∀ r n, ¬ P n → g r n i = r i) :
    ∀ (l : List κ) (x : ι → α), (∀ n ∈ l, ¬ P n) → l.foldl g x i = x i := by
  intro l
  induction l with
  | nil => intro x _; rfl
  | cons a l ih =>
    intro x h
    rw [List.foldl_cons, ih (g x a) (fun n hn => h n (List.mem_cons_of_mem a hn)),
      hmiss x a (h a (by simp))]

/-- A left fold over a list without duplicates whose step writes val n at i for the members n in P
    and leaves the value at i alone for the others gives val n0 at i, when n0 is the only member in P. -/
theorem foldl_hit {ι κ α : Type} (g : (ι → α) → κ → (ι → α)) (i : ι) (P : κ → Prop) (val : κ → α)
    (hmiss : ∀ r n, ¬ P n → g r n i = r i) (hhit : ∀ r n, P n → g r n i = val n) (n0 : κ) (hP : P n0) :
    ∀ (l : List κ) (x : ι → α), l.Nodup → n0 ∈ l → (∀ n ∈ l, P n → n = n0) → l.foldl g x i = val n0 := by
  intro l
  induction l with
  | nil => intro x _ hmem _; exact absurd hmem (by simp)
  | cons a l ih =>
    intro x hnd hmem huniq
    rw [List.foldl_cons]
    rw [List.nodup_cons] at hnd
    by_cases ha : a = n0
    · subst ha
      rw [foldl_miss g i P hmiss l (g x a) (fun n hn hPn => by
        have := huniq n (List.mem_cons_of_mem a hn) hPn
        subst this
        exact hnd.1 hn)]
      exact hhit x a hP
    · have hmem' : n0 ∈ l := by
        rcases List.mem_cons.1 hmem with h | h
        · exact absurd h.symm ha
        · exact h
      exact ih (g x a) hnd.2 hmem' (fun n hn => huniq n (List.mem_cons_of_mem a hn))

/-! ## The host's scatter with the body that returns the update -/

section Scatter
variable {s si u : Shape} {w : Nat} {α : Type}

/-- A scatter whose body returns the update, read at an index exactly one update index lands on:
    the result there is the update at that update index. -/
theorem scatter_set_hit (d : ScatterDims s si u) (x : s.Idx → α) (idx : IVec si w) (upd : u.Idx → α)
    (j : u.Idx) (i : s.Idx) (hj : d.resultIdx? j idx = some i)
    (hinj : ∀ j', d.resultIdx? j' idx = some i → j' = j) :
    Host.scatter d (fun _ b => b) x idx upd i = upd j := by
  unfold Host.scatter
  have key := foldl_hit
    (fun (r : s.Idx → α) (n : Fin u.numel) =>
      match d.resultIdx? (u.rowMajor.symm n) idx with
      | some i0 => fun i' => if i' = i0 then (fun (_ b : α) => b) (r i0) (upd (u.rowMajor.symm n)) else r i'
      | none => r)
    i (fun n => d.resultIdx? (u.rowMajor.symm n) idx = some i) (fun n => upd (u.rowMajor.symm n))
    (by
      intro r n hn
      revert hn
      generalize d.resultIdx? (u.rowMajor.symm n) idx = o
      intro hn
      cases o with
      | none => rfl
      | some i0 =>
        have hne : i ≠ i0 := fun e => hn (by rw [e])
        exact if_neg hne)
    (by
      intro r n hn
      revert hn
      generalize d.resultIdx? (u.rowMajor.symm n) idx = o
      intro hn
      subst hn
      exact if_pos rfl)
    (u.rowMajor j) (by show d.resultIdx? (u.rowMajor.symm (u.rowMajor j)) idx = some i; rw [Equiv.symm_apply_apply]; exact hj)
    (List.finRange u.numel) x (List.nodup_finRange _) (List.mem_finRange _)
    (by
      intro n _ hn
      have := hinj _ hn
      rw [← this, Equiv.apply_symm_apply])
  have key' : upd (u.rowMajor.symm (u.rowMajor j)) = upd j := by rw [Equiv.symm_apply_apply]
  exact key.trans key'

/-- A scatter whose body returns the update, read at an index no update index lands on:
    the result there is the operand. -/
theorem scatter_set_miss (d : ScatterDims s si u) (x : s.Idx → α) (idx : IVec si w) (upd : u.Idx → α)
    (i : s.Idx) (h : ∀ j, d.resultIdx? j idx ≠ some i) :
    Host.scatter d (fun _ b => b) x idx upd i = x i := by
  unfold Host.scatter
  exact foldl_miss
    (fun (r : s.Idx → α) (n : Fin u.numel) =>
      match d.resultIdx? (u.rowMajor.symm n) idx with
      | some i0 => fun i' => if i' = i0 then (fun (_ b : α) => b) (r i0) (upd (u.rowMajor.symm n)) else r i'
      | none => r)
    i (fun n => d.resultIdx? (u.rowMajor.symm n) idx = some i)
    (by
      intro r n hn
      revert hn
      generalize d.resultIdx? (u.rowMajor.symm n) idx = o
      intro hn
      cases o with
      | none => rfl
      | some i0 =>
        have hne : i ≠ i0 := fun e => hn (by rw [e])
        exact if_neg hne)
    (List.finRange u.numel) x (fun n _ => h _)

end Scatter

/-! ## One whole window written at a fixed start -/

section Window
variable {A B H W w : Nat} {si : Shape} {α : Type}

/-- When every update index's window starts at (r0, c0), its window coordinates are its own
    coordinates, and the H x W window at (r0, c0) lies inside the A x B array, update index j lands
    on the array index (r0 + j 0, c0 + j 1). -/
theorem resultIdx?_window (d : ScatterDims ⟨2, ![A, B]⟩ si ⟨2, ![H, W]⟩) (idx : IVec si w) (r0 c0 : Nat)
    (hwin : ∀ (j : (⟨2, ![H, W]⟩ : Shape).Idx) (a : Fin 2), d.window j a = (j a).val)
    (hs0 : ∀ j, d.start j idx 0 = (r0 : Int)) (hs1 : ∀ j, d.start j idx 1 = (c0 : Int))
    (hA : r0 + H ≤ A) (hB : c0 + W ≤ B) (j : (⟨2, ![H, W]⟩ : Shape).Idx) :
    d.resultIdx? j idx
      = some (ix2 ⟨r0 + (j 0).val, by have := idx2_lt0 j; omega⟩ ⟨c0 + (j 1).val, by have := idx2_lt1 j; omega⟩) := by
  have h0 : d.start j idx 0 + (d.window j 0 : Int) = ((r0 + (j 0).val : Nat) : Int) := by
    rw [hs0, hwin]; push_cast; rfl
  have h1 : d.start j idx 1 + (d.window j 1 : Int) = ((c0 + (j 1).val : Nat) : Int) := by
    rw [hs1, hwin]; push_cast; rfl
  have hj0 := idx2_lt0 j
  have hj1 := idx2_lt1 j
  unfold ScatterDims.resultIdx?
  rw [dif_pos (by
    intro a
    match a with
    | ⟨0, _⟩ =>
      show 0 ≤ d.start j idx 0 + (d.window j 0 : Int) ∧ d.start j idx 0 + (d.window j 0 : Int) < (A : Int)
      rw [h0]; omega
    | ⟨1, _⟩ =>
      show 0 ≤ d.start j idx 1 + (d.window j 1 : Int) ∧ d.start j idx 1 + (d.window j 1 : Int) < (B : Int)
      rw [h1]; omega)]
  congr 1
  funext a
  match a with
  | ⟨0, _⟩ =>
    apply Fin.ext
    show (d.start j idx 0 + (d.window j 0 : Int)).toNat = r0 + (j 0).val
    rw [h0]; exact Int.toNat_natCast _
  | ⟨1, _⟩ =>
    apply Fin.ext
    show (d.start j idx 1 + (d.window j 1 : Int)).toNat = c0 + (j 1).val
    rw [h1]; exact Int.toNat_natCast _

/-- One whole H x W window written at start (r0, c0) into an A x B array by a scatter whose body
    returns the update: at (p, q) inside the window the result is the update at (p - r0, q - c0), and
    at (p, q) outside the window it is the operand. -/
theorem scatter_window_apply (d : ScatterDims ⟨2, ![A, B]⟩ si ⟨2, ![H, W]⟩) (idx : IVec si w) (r0 c0 : Nat)
    (hwin : ∀ (j : (⟨2, ![H, W]⟩ : Shape).Idx) (a : Fin 2), d.window j a = (j a).val)
    (hs0 : ∀ j, d.start j idx 0 = (r0 : Int)) (hs1 : ∀ j, d.start j idx 1 = (c0 : Int))
    (hA : r0 + H ≤ A) (hB : c0 + W ≤ B)
    (x : (⟨2, ![A, B]⟩ : Shape).Idx → α) (upd : (⟨2, ![H, W]⟩ : Shape).Idx → α) (p : Fin A) (q : Fin B) :
    Host.scatter d (fun _ b => b) x idx upd (ix2 p q)
      = if h : (r0 ≤ p.val ∧ p.val < r0 + H) ∧ (c0 ≤ q.val ∧ q.val < c0 + W) then
          upd (ix2 ⟨p.val - r0, by omega⟩ ⟨q.val - c0, by omega⟩)
        else x (ix2 p q) := by
  have hres := resultIdx?_window d idx r0 c0 hwin hs0 hs1 hA hB
  -- an update index that lands on (p, q) has coordinates (p - r0, q - c0)
  have hcoord : ∀ j, d.resultIdx? j idx = some (ix2 p q) → r0 + (j 0).val = p.val ∧ c0 + (j 1).val = q.val := by
    intro j hj
    rw [hres j] at hj
    have e := Option.some.inj hj
    exact ⟨congrArg Fin.val (congrFun e 0), congrArg Fin.val (congrFun e 1)⟩
  by_cases h : (r0 ≤ p.val ∧ p.val < r0 + H) ∧ (c0 ≤ q.val ∧ q.val < c0 + W)
  · rw [dif_pos h]
    apply scatter_set_hit d x idx upd
    · rw [hres]
      congr 1
      funext a
      match a with
      | ⟨0, _⟩ => apply Fin.ext; show r0 + (p.val - r0) = p.val; omega
      | ⟨1, _⟩ => apply Fin.ext; show c0 + (q.val - c0) = q.val; omega
    · intro j' hj'
      obtain ⟨e0, e1⟩ := hcoord j' hj'
      funext a
      match a with
      | ⟨0, _⟩ => apply Fin.ext; show (j' 0).val = p.val - r0; omega
      | ⟨1, _⟩ => apply Fin.ext; show (j' 1).val = q.val - c0; omega
  · rw [dif_neg h]
    apply scatter_set_miss d x idx upd
    intro j hj
    obtain ⟨e0, e1⟩ := hcoord j hj
    have hj0 := idx2_lt0 j
    have hj1 := idx2_lt1 j
    exact h ⟨⟨by omega, by omega⟩, ⟨by omega, by omega⟩⟩

end Window

end Cert.Lib.WindowScatter
-- ==== Proof.RefScatter.lean ====
/-
  The scattered array read at an index, at the extended reals.

  Update index (r, k) lands on the array index (r, i_k, j_k), where (i_k, j_k) is entry k of the table of index pairs:
  the window covers the batch axis alone, the two scattered axes start at the table's entries read as signed
  integers (they are below 64, so nonnegative and inside the array), and nothing is dropped. Since the table is a
  bijection between the 2016 positions and the pairs above the diagonal, exactly one update index lands on
  (r, i, j) when i < j, namely (r, tri i j), and none lands there otherwise. The body of the scatter keeps the
  update, so the scattered array holds parameter tri i j of row r above the diagonal and the zero word elsewhere.
-/
import proofs.«117296_j54039278518768_2_alg».proof.Proof.RefRun
import proofs.«117296_j54039278518768_2_alg».proof.Proof.RefTable
import proofs.«117296_j54039278518768_2_alg».proof.Proof.RefParams
import proofs.«117296_j54039278518768_2_alg».proof.Proof.Spec
import proofs.«117296_j54039278518768_2_alg».proof.Proof.LibWindowScatter
import Idealize.ShloMosaic.Lib.IdealHost

noncomputable section

namespace Cert.ReferenceIdeal.RefScatter

open Cert.ReferenceIdeal Cert.ReferenceIdeal.Gen Cert.ReferenceIdeal.RefRun Cert.ReferenceIdeal.RefTable
  Cert.ReferenceIdeal.RefParams Cert.Skew Cert.Lib.WindowScatter Idealize.ShloMosaic Idealize.ShloMosaic.ValueIdx

/-- The scatter's dimension numbers: window axis 0 of the update onto axis 0 of the array, the two index components
    onto axes 1 and 2. -/
abbrev sd : ScatterDims S16384x64x64 S2016x2 S16384x2016 := scatter_S16384x64x64_S2016x2_S16384x2016_0_12_12_1

/-! ## Where an update index starts and what its window adds -/

/-- Axis 0 is not a scattered axis: its start is 0. -/
theorem start0 (j : S16384x2016.Idx) (idx : IVec S2016x2 32) : sd.start j idx 0 = 0 := rfl
/-- The window coordinate on axis 0 is the update's batch coordinate. -/
theorem window0 (r : Fin 16384) (k : Fin 2016) : sd.window (ix2 r k) 0 = r.val := rfl
/-- Axes 1 and 2 are inserted: their window coordinate is 0. -/
theorem window1 (j : S16384x2016.Idx) : sd.window j 1 = 0 := rfl
theorem window2 (j : S16384x2016.Idx) : sd.window j 2 = 0 := rfl

/-- Update index (r, k) reads component c of its start index at the table's entry (k, c). -/
theorem siIdx_eq (r : Fin 16384) (k : Fin 2016) (c : Fin sd.scatterDimsToOperandDims.length) :
    sd.siIdx (ix2 r k) c = ix2 k (⟨c.val, c.isLt⟩ : Fin 2) := by
  funext b
  refine Fin.ext ?_
  match b with
  | ⟨0, _⟩ => rfl
  | ⟨1, _⟩ => rfl

/-- The start on axis 1 is the table's entry (k, 0) read signed. -/
theorem start1 (r : Fin 16384) (k : Fin 2016) (idx : IVec S2016x2 32) :
    sd.start (ix2 r k) idx 1 = (idx (ix2 k (0 : Fin 2))).toInt := by
  unfold ScatterDims.start
  rw [dif_pos (show (1 : Fin 3) ∈ sd.scatterDimsToOperandDims by decide), siIdx_eq]
  rfl

/-- The start on axis 2 is the table's entry (k, 1) read signed. -/
theorem start2 (r : Fin 16384) (k : Fin 2016) (idx : IVec S2016x2 32) :
    sd.start (ix2 r k) idx 2 = (idx (ix2 k (1 : Fin 2))).toInt := by
  unfold ScatterDims.start
  rw [dif_pos (show (2 : Fin 3) ∈ sd.scatterDimsToOperandDims by decide), siIdx_eq]
  rfl

/-! ## Where an update index lands -/

section Lands
variable {F : FTy → Type} [FloatOps F]

/-- Update index (r, k) lands on (r, i_k, j_k), the k-th pair of the table. -/
theorem resultIdx_tab (r : Fin 16384) (k : Fin 2016) :
    sd.resultIdx? (ix2 r k) (idxTab (F := F))
      = some (ix3 r (⟨(lit0 k).toNat, lit0_lt k⟩ : Fin 64) (⟨(lit1 k).toNat, lit1_lt k⟩ : Fin 64)) := by
  have l0 := lit0_lt k
  have l1 := lit1_lt k
  have hr := r.isLt
  have h0 : sd.start (ix2 r k) (idxTab (F := F)) 0 + (sd.window (ix2 r k) 0 : Int) = ((r.val : Nat) : Int) := by
    rw [start0, window0, zero_add]
  have h1 : sd.start (ix2 r k) (idxTab (F := F)) 1 + (sd.window (ix2 r k) 1 : Int) = (((lit0 k).toNat : Nat) : Int) := by
    rw [start1, window1, idxTab_apply0, BitVec.toInt_eq_toNat_of_lt (by omega)]
    simp
  have h2 : sd.start (ix2 r k) (idxTab (F := F)) 2 + (sd.window (ix2 r k) 2 : Int) = (((lit1 k).toNat : Nat) : Int) := by
    rw [start2, window2, idxTab_apply1, BitVec.toInt_eq_toNat_of_lt (by omega)]
    simp
  unfold ScatterDims.resultIdx?
  rw [dif_pos (by
    intro a
    match a with
    | ⟨0, _⟩ =>
      show 0 ≤ sd.start (ix2 r k) (idxTab (F := F)) 0 + (sd.window (ix2 r k) 0 : Int)
        ∧ sd.start (ix2 r k) (idxTab (F := F)) 0 + (sd.window (ix2 r k) 0 : Int) < (16384 : Int)
      rw [h0]; omega
    | ⟨1, _⟩ =>
      show 0 ≤ sd.start (ix2 r k) (idxTab (F := F)) 1 + (sd.window (ix2 r k) 1 : Int)
        ∧ sd.start (ix2 r k) (idxTab (F := F)) 1 + (sd.window (ix2 r k) 1 : Int) < (64 : Int)
      rw [h1]; omega
    | ⟨2, _⟩ =>
      show 0 ≤ sd.start (ix2 r k) (idxTab (F := F)) 2 + (sd.window (ix2 r k) 2 : Int)
        ∧ sd.start (ix2 r k) (idxTab (F := F)) 2 + (sd.window (ix2 r k) 2 : Int) < (64 : Int)
      rw [h2]; omega)]
  congr 1
  funext a
  match a with
  | ⟨0, _⟩ =>
    apply Fin.ext
    show (sd.start (ix2 r k) (idxTab (F := F)) 0 + (sd.window (ix2 r k) 0 : Int)).toNat = r.val
    rw [h0]; exact Int.toNat_natCast _
  | ⟨1, _⟩ =>
    apply Fin.ext
    show (sd.start (ix2 r k) (idxTab (F := F)) 1 + (sd.window (ix2 r k) 1 : Int)).toNat = (lit0 k).toNat
    rw [h1]; exact Int.toNat_natCast _
  | ⟨2, _⟩ =>
    apply Fin.ext
    show (sd.start (ix2 r k) (idxTab (F := F)) 2 + (sd.window (ix2 r k) 2 : Int)).toNat = (lit1 k).toNat
    rw [h2]; exact Int.toNat_natCast _

/-- An update index that lands on (r, i, j) is in batch row r and its table entry is the pair (i, j). -/
theorem lands_coords (r' r : Fin 16384) (k' : Fin 2016) (i j : Fin 64)
    (h : sd.resultIdx? (ix2 r' k') (idxTab (F := F)) = some (ix3 r i j)) :
    r' = r ∧ (lit0 k').toNat = i.val ∧ (lit1 k').toNat = j.val := by
  rw [resultIdx_tab] at h
  have e := Option.some.inj h
  exact ⟨congrFun e 0, congrArg Fin.val (congrFun e 1), congrArg Fin.val (congrFun e 2)⟩

end Lands

/-! ## The scattered array at an index -/

/-- The scattered array at (r, i, j) is the specification's upper-triangular matrix of row r at (i, j). -/
theorem scattered_apply (a0 : (⟨2, ![16384, 64]⟩ : Shape).Idx → EReal) (a1 : (⟨2, ![128, 64]⟩ : Shape).Idx → EReal)
    (a2 : (⟨1, ![128]⟩ : Shape).Idx → EReal) (a3 : (⟨2, ![2016, 128]⟩ : Shape).Idx → EReal)
    (a4 : (⟨1, ![2016]⟩ : Shape).Idx → EReal) (r : Fin 16384) (i j : Fin 64) :
    scattered (F := Ideal) a0 a1 a2 a3 a4 (ix3 r i j) = upper a0 a1 a2 a3 a4 r i j := by
  unfold RefRun.scattered Cert.Skew.upper
  by_cases h : i.val < j.val
  · rw [dif_pos h]
    have hp := tab_pair i j h
    refine (scatter_set_hit _ _ _ _ (ix2 r (⟨tri i.val j.val, tri_lt i j h⟩ : Fin 2016)) (ix3 r i j) ?_ ?_).trans
      (params_apply a0 a1 a2 a3 a4 r ⟨tri i.val j.val, tri_lt i j h⟩)
    · rw [resultIdx_tab]
      congr 1
      funext a
      match a with
      | ⟨0, _⟩ => rfl
      | ⟨1, _⟩ => exact Fin.ext hp.1
      | ⟨2, _⟩ => exact Fin.ext hp.2
    · intro j' hj'
      obtain ⟨r', k', rfl⟩ : ∃ (r' : Fin 16384) (k' : Fin 2016), j' = ix2 r' k' := ⟨j' 0, j' 1, eq_ix2 j'⟩
      obtain ⟨e0, e1, e2⟩ := lands_coords r' r k' i j hj'
      have hk := (tab_inv k').2.2
      rw [e1, e2] at hk
      have hk' : k' = (⟨tri i.val j.val, tri_lt i j h⟩ : Fin 2016) := Fin.ext hk.symm
      rw [e0, hk']
  · rw [dif_neg h]
    refine (scatter_set_miss _ _ _ _ (ix3 r i j) ?_).trans ?_
    · intro j' hj'
      obtain ⟨r', k', rfl⟩ : ∃ (r' : Fin 16384) (k' : Fin 2016), j' = ix2 r' k' := ⟨j' 0, j' 1, eq_ix2 j'⟩
      obtain ⟨_, e1, e2⟩ := lands_coords r' r k' i j hj'
      have hk := (tab_inv k').1
      omega
    · rw [broadcastInDim_scalar_apply]
      rfl

end Cert.ReferenceIdeal.RefScatter

end
-- ==== Proof.RefValue.lean ====
/-
  The reference's result is the specification's array.

  The result is the scattered array minus its transpose in the last two axes. The transpose reads (r, i, j) at
  (r, j, i), and a difference of arrays is the difference of the entries, so the result at (r, i, j) is the
  upper-triangular matrix of row r at (i, j) minus the same matrix at (j, i): the skew-symmetric matrix of the
  specification. The run of the program then ends with the result buffer at that array.
-/
import proofs.«117296_j54039278518768_2_alg».proof.Proof.RefRun
import proofs.«117296_j54039278518768_2_alg».proof.Proof.RefScatter
import proofs.«117296_j54039278518768_2_alg».proof.Proof.Spec

noncomputable section

namespace Cert.ReferenceIdeal.RefValue

open Cert.ReferenceIdeal Cert.ReferenceIdeal.Gen Cert.ReferenceIdeal.RefRun Cert.ReferenceIdeal.RefScatter Cert.Skew
  Idealize.ShloMosaic Idealize.ShloMosaic.TcCoe Idealize.SL.Sem Idealize.ShloMosaic.StableHlo Idealize.ShloMosaic.ValueIdx

/-- An array minus its transpose in the last two axes, read at (r, i, j): the entry at (r, i, j) minus the entry at
    (r, j, i), for any array. -/
theorem sub_transpose_apply (s : FVec Ideal S16384x64x64 .f32) (r : Fin 16384) (i j : Fin 64) :
    subf s (transpose S16384x64x64 [0, 2, 1] s transposes_S16384x64x64_S16384x64x64_0_2_1) (ix3 r i j)
      = s (ix3 r i j) - s (ix3 r j i) := by
  rw [subf_apply, transpose_apply [0, 2, 1] s transposes_S16384x64x64_S16384x64x64_0_2_1 (ix3 r i j) (ix3 r j i)
    (by intro b; match b with | ⟨0, _⟩ => rfl | ⟨1, _⟩ => rfl | ⟨2, _⟩ => rfl)]

/-- The same for an array known at every index: if s reads as the upper-triangular matrices, the difference reads as
    the skew-symmetric ones. -/
theorem sub_transpose_eq (a0 : (⟨2, ![16384, 64]⟩ : Shape).Idx → EReal) (a1 : (⟨2, ![128, 64]⟩ : Shape).Idx → EReal)
    (a2 : (⟨1, ![128]⟩ : Shape).Idx → EReal) (a3 : (⟨2, ![2016, 128]⟩ : Shape).Idx → EReal)
    (a4 : (⟨1, ![2016]⟩ : Shape).Idx → EReal) (s : FVec Ideal S16384x64x64 .f32)
    (hs : ∀ (r : Fin 16384) (i j : Fin 64), s (ix3 r i j) = upper a0 a1 a2 a3 a4 r i j) :
    subf s (transpose S16384x64x64 [0, 2, 1] s transposes_S16384x64x64_S16384x64x64_0_2_1) = skewArr a0 a1 a2 a3 a4 := by
  funext y
  obtain ⟨r, i, j, rfl⟩ : ∃ (r : Fin 16384) (i j : Fin 64), y = ix3 r i j := ⟨y 0, y 1, y 2, eq_ix3 y⟩
  rw [skewArr_ix3, sub_transpose_apply, hs, hs]
  rfl

/-- The composed term of the run, at the extended reals, is the specification's array. -/
theorem result_eq (a0 : (⟨2, ![16384, 64]⟩ : Shape).Idx → EReal) (a1 : (⟨2, ![128, 64]⟩ : Shape).Idx → EReal)
    (a2 : (⟨1, ![128]⟩ : Shape).Idx → EReal) (a3 : (⟨2, ![2016, 128]⟩ : Shape).Idx → EReal)
    (a4 : (⟨1, ![2016]⟩ : Shape).Idx → EReal) :
    RefRun.result (F := Ideal) a0 a1 a2 a3 a4 = skewArr a0 a1 a2 a3 a4 :=
  sub_transpose_eq a0 a1 a2 a3 a4 (scattered (F := Ideal) a0 a1 a2 a3 a4) (scattered_apply a0 a1 a2 a3 a4)

/-- On every device, from any memory with zero counters: every weakly fair execution of the reference at the
    extended reals terminates with the result buffer at the specification's array of the arguments, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = Cert.Skew.skewArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (result_eq _ _ _ _ _), (h c).2⟩)
    (RefRun.run (F := Ideal) m ρ)

end Cert.ReferenceIdeal.RefValue

end
-- ==== Proof.lean ====
/-
  The skew-symmetric layer: a two-layer perceptron's 2016 outputs per batch row placed in the strict upper triangle of
  a 64 × 64 matrix, minus the transpose.

  Over the extended reals both programs compute the same array (Proof/Spec.lean): with
  hidden = tanh (x · W1ᵀ + b1) and params = hidden · W2ᵀ + b2, the upper-triangular matrix U_r of batch row r holds
  params (r, tri i j) at (i, j) for i < j — tri i j the number of the pair (i, j) in the row-major enumeration of the
  strict upper triangle — and the zero word elsewhere, and the result is U_r - U_rᵀ.
  The kernel handles 256 batch rows per grid point: its body fills the output block with the zero word, writes row i of
  every matrix right of the diagonal from the columns tri i (i+1) … of the parameter block, loads the block back and stores
  it minus its transpose; the 64 blocks tile the batch axis (Proof/KFill, KSegs, KBody, KPay, KBlocks, KValue).
  The reference scatters the parameter columns through a table of the 2016 index pairs (i, j), i < j, in the same
  enumeration, into a zero array, and subtracts the transpose (Proof/RefRun, RefParams, RefTable, RefScatter, RefValue).
  The two matrix products are sums over the contracted axis in the same order on both sides and the changes of float
  format are the identity, so no law beyond reading both sides index by index is needed, and the precondition is not used.
  The idealization rewrote nothing, so the kernel's idealization claim is trivial; the frames are the generated ones,
  the reference's being its run with the result dropped.
-/
import proofs.«117296_j54039278518768_2_alg».proof.Defs
import proofs.«117296_j54039278518768_2_alg».proof.Proof.Gen.Kernel
import proofs.«117296_j54039278518768_2_alg».proof.Proof.Gen.Kernel.Skeleton
import proofs.«117296_j54039278518768_2_alg».proof.Proof.Gen.Kernel.Launch
import proofs.«117296_j54039278518768_2_alg».proof.Proof.Gen.Kernel.Points
import proofs.«117296_j54039278518768_2_alg».proof.Proof.Gen.Kernel.Frame
import proofs.«117296_j54039278518768_2_alg».proof.Proof.Gen.KernelIdeal
import proofs.«117296_j54039278518768_2_alg».proof.Proof.Gen.KernelIdeal.Skeleton
import proofs.«117296_j54039278518768_2_alg».proof.Proof.Gen.KernelIdeal.Launch
import proofs.«117296_j54039278518768_2_alg».proof.Proof.Gen.KernelIdeal.Points
import proofs.«117296_j54039278518768_2_alg».proof.Proof.Gen.KernelIdeal.Frame
import proofs.«117296_j54039278518768_2_alg».proof.Proof.Gen.KernelIdeal.Value
import proofs.«117296_j54039278518768_2_alg».proof.Proof.Gen.ReferenceIdeal
import proofs.«117296_j54039278518768_2_alg».proof.Proof.Gen.Pre_finite_inputs
import proofs.«117296_j54039278518768_2_alg».proof.Proof.KValue
import proofs.«117296_j54039278518768_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both runs end with the result at the specification's array of the arguments, and the arguments agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
